-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x16 .f32) (main_arg12 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x16 .f32 := Host.absf main_arg11
  let main_cst_18 : FVec F S_ .f32 := constant S_ .f32 0x7F800000#32
  let main_v50 : FVec F S128x16 .f32 := broadcastInDim S128x16 ![] bcast_S_S128x16 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x16 .f32) (main_arg12 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x16 .f32) (main_arg12 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S50000x16 : Shape := ⟨2, ![50000, 16]⟩
abbrev S5000x16 : Shape := ⟨2, ![5000, 16]⟩
abbrev S1x16 : Shape := ⟨2, ![1, 16]⟩

abbrev nBuf : Space → Nat
  | .hbm => 115
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x16, .f32⟩
  | .hbm, ⟨12, _⟩ => ⟨S16, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S1x800000, .i32⟩
  | .hbm, ⟨36, _⟩ => ⟨S800000, .i32⟩
  | .hbm, ⟨37, _⟩ => ⟨S1x800000, .i32⟩
  | .hbm, ⟨38, _⟩ => ⟨S800000, .i32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .bf16⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .bf16⟩
  | .hbm, ⟨61, _⟩ => ⟨S1x800000, .i32⟩
  | .hbm, ⟨62, _⟩ => ⟨S800000, .i32⟩
  | .hbm, ⟨63, _⟩ => ⟨S1x800000, .i32⟩
  | .hbm, ⟨64, _⟩ => ⟨S800000, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .bf16⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .bf16⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S50000x128, .bf16⟩
  | .hbm, ⟨88, _⟩ => ⟨S1x800000, .i32⟩
  | .hbm, ⟨89, _⟩ => ⟨S800000, .i32⟩
  | .hbm, ⟨90, _⟩ => ⟨S1x800000, .i32⟩
  | .hbm, ⟨91, _⟩ => ⟨S800000, .i32⟩
  | .hbm, ⟨92, _⟩ => ⟨S50000x128, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .bf16⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .bf16⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S50000x1, .f32⟩
  | .hbm, ⟨112, _⟩ => ⟨S50000x128, .f32⟩
  | .hbm, ⟨113, _⟩ => ⟨S50000x128, .f32⟩
  | .hbm, ⟨114, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x128, .bf16⟩
  | .local _ .vmem, ⟨21, _⟩ => ⟨S5000x128, .bf16⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S128x16, .f32⟩
  | .local _ .vmem, ⟨26, _⟩ => ⟨S16, .f32⟩
  | .local _ .vmem, ⟨27, _⟩ => ⟨S5000x16, .f32⟩
  | .local _ .vmem, ⟨28, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_c_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_9 : Ref sig .tc := ⟨.hbm, 97, rfl⟩
abbrev main_v73 : Ref sig .tc := ⟨.hbm, 98, rfl⟩
abbrev main_v74 : Ref sig .tc := ⟨.hbm, 99, rfl⟩
abbrev main_c_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_11 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .f32 = 32 ∨ (Rect.block (s := S128x16) S128x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16.size a ≤ S16.size a
  hwx2_6 : ∀ i : grid2.Coords, EltTy.bits .f32 = 32 ∨ (Rect.block (s := S16) S16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x16.size a ≤ S50000x16.size a
  hwx2_7 : ∀ i : grid2.Coords, EltTy.bits .f32 = 32 ∨ (Rect.block (s := S50000x16) S5000x16.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v62) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v86) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v87) S5000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S800000, .f32⟩
  | 53 => ⟨S1x800000, .i32⟩
  | 54 => ⟨S800000, .i32⟩
  | 55 => ⟨S1x800000, .i32⟩
  | 56 => ⟨S800000, .i32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .i1⟩
  | 82 => ⟨S_, .f32⟩
  | 83 => ⟨S50000x128, .f32⟩
  | 84 => ⟨S50000x128, .f32⟩
  | 85 => ⟨S50000x128, .f32⟩
  | 86 => ⟨S1x800000, .i32⟩
  | 87 => ⟨S800000, .i32⟩
  | 88 => ⟨S1x800000, .i32⟩
  | 89 => ⟨S800000, .i32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x1, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .i1⟩
  | 115 => ⟨S_, .f32⟩
  | 116 => ⟨S50000x128, .f32⟩
  | 117 => ⟨S50000x128, .f32⟩
  | 118 => ⟨S50000x128, .f32⟩
  | 119 => ⟨S1x800000, .i32⟩
  | 120 => ⟨S800000, .i32⟩
  | 121 => ⟨S1x800000, .i32⟩
  | 122 => ⟨S800000, .i32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S800000x1, .f32⟩
  | 5 => ⟨S800000x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .i1⟩
  | 20 => ⟨S_, .f32⟩
  | 21 => ⟨S50000x128, .f32⟩
  | 22 => ⟨S50000x128, .f32⟩
  | 23 => ⟨S50000x128, .f32⟩
  | 24 => ⟨S50000x16, .f32⟩
  | 25 => ⟨S1x16, .f32⟩
  | 26 => ⟨S50000x16, .f32⟩
  | 27 => ⟨S50000x16, .f32⟩
  | 28 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_17 : Ref sig .tc := ⟨.hbm, 123, rfl⟩
abbrev main_v91 : Ref sig .tc := ⟨.hbm, 124, rfl⟩
abbrev main_v92 : Ref sig .tc := ⟨.hbm, 125, rfl⟩
abbrev main_c_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_19 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_20 : Ref sig .tc := ⟨.hbm, 145, rfl⟩
abbrev main_v110 : Ref sig .tc := ⟨.hbm, 146, rfl⟩
abbrev main_v111 : Ref sig .tc := ⟨.hbm, 147, rfl⟩
abbrev main_cst_21 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelRun.lean ====
/-
  The idealized kernel's run with its result named.  The program is three tiled calls among stretches of host
  operations; its run is a chain of segments, and at the end every buffer that outlives a call holds the last
  boundary's contents.  Read there, the result array is what the third call's write-backs leave, and the thirteen
  argument arrays are as launched.
-/
import proofs.«129009_j32332513804719_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result array at the last segment
    boundary's contents and every argument array as launched. -/
theorem run_result : θ_run defs (onTc (τ := τ) (main (F := F))) ⟨m, fun _ => 0, ρ⟩ (fun r => ∀ c : Dev nD,
      r.2.mem ((c.tc : Thread nD τ).loc main_v87) = W6 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v87 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Result

end
-- ==== Proof.KernelSpec.lean ====
/-
  The host side of the tiled program, stage by stage, as functions of its argument arrays.

  The tiled program never forms a weight per edge.  It takes the reciprocal square roots of the two clamped
  degrees per node, scales the rows of the activations by the source-side factor before they are gathered along
  the edges and summed at the destinations, and scales the summed rows by the destination-side factor afterwards.
  (The narrowing of the scaled rows to 16-bit floats before the gather and the widening after it change nothing at
  the exact instance.)
-/
import proofs.«129009_j32332513804719_2_alg».proof.Proof.Gen.KernelIdeal

noncomputable section

namespace Cert.KernelIdeal.Spec

open Cert.KernelIdeal Cert.KernelIdeal.Gen Idealize.ShloMosaic Idealize.ShloMosaic.TcCoe

variable {F : FTy → Type} [FloatOps F]

/-- The edges' source node numbers as a column, as given. -/
def srcRaw (e : IVec S2x800000 32) : IVec S800000x1 32 :=
  (broadcastInDim S800000x1 ![0] bcast_S800000_S800000x1_0 (shapeCast S800000 (extractStridedSlice S1x800000 ![0, 0] e slices_S2x800000_S1x800000_0_0) shapeCasts_S1x800000_S800000))

/-- The edges' destination node numbers as a column, as given. -/
def dstRaw (e : IVec S2x800000 32) : IVec S800000x1 32 :=
  (broadcastInDim S800000x1 ![0] bcast_S800000_S800000x1_0 (shapeCast S800000 (extractStridedSlice S1x800000 ![1, 0] e slices_S2x800000_S1x800000_1_0) shapeCasts_S1x800000_S800000))

/-- The source node numbers with the negative ones wrapped around by 50000. -/
def srcNorm (e : IVec S2x800000 32) : IVec S800000x1 32 :=
  (broadcastInDim S800000x1 ![0] bcast_S800000_S800000x1_0 (select (cmpi .slt (shapeCast S800000 (extractStridedSlice S1x800000 ![0, 0] e slices_S2x800000_S1x800000_0_0) shapeCasts_S1x800000_S800000) (broadcastInDim S800000 ![] bcast_S_S800000 ((constantI S_ 32 0#32)))) (addi (shapeCast S800000 (extractStridedSlice S1x800000 ![0, 0] e slices_S2x800000_S1x800000_0_0) shapeCasts_S1x800000_S800000) (broadcastInDim S800000 ![] bcast_S_S800000 ((constantI S_ 32 50000#32)))) (shapeCast S800000 (extractStridedSlice S1x800000 ![0, 0] e slices_S2x800000_S1x800000_0_0) shapeCasts_S1x800000_S800000)))

/-- The out-degree of every node, clamped below at 1. -/
def degOut (e : IVec S2x800000 32) : FVec F S50000 .f32 :=
  (maximumf (Host.scatterAdd scatter_S50000_S800000x1_S800000_n_0_0_1 (broadcastInDim S50000 ![] bcast_S_S50000 ((constant S_ .f32 0x00000000#32))) (srcRaw e) (broadcastInDim S800000 ![] bcast_S_S800000 ((constant S_ .f32 0x3F800000#32)))) (broadcastInDim S50000 ![] bcast_S_S50000 ((constant S_ .f32 0x3F800000#32))))

/-- The in-degree of every node, clamped below at 1. -/
def degIn (e : IVec S2x800000 32) : FVec F S50000 .f32 :=
  (maximumf (Host.scatterAdd scatter_S50000_S800000x1_S800000_n_0_0_1 (broadcastInDim S50000 ![] bcast_S_S50000 ((constant S_ .f32 0x00000000#32))) (dstRaw e) (broadcastInDim S800000 ![] bcast_S_S800000 ((constant S_ .f32 0x3F800000#32)))) (broadcastInDim S50000 ![] bcast_S_S50000 ((constant S_ .f32 0x3F800000#32))))

/-- The source-side factor of every node: the reciprocal square root of its clamped out-degree. -/
def disOut (e : IVec S2x800000 32) : FVec F S50000 .f32 :=
  (Host.rsqrt (degOut e))

/-- The destination-side factor of every node: the reciprocal square root of its clamped in-degree. -/
def disIn (e : IVec S2x800000 32) : FVec F S50000 .f32 :=
  (Host.rsqrt (degIn e))

/-- One aggregation, the factors applied per node: the rows of `h` scaled by `dO`, gathered along the edges, summed at
    the destinations, the sums scaled by `dI`. -/
def agg (h : FVec F S50000x128 .f32) (e : IVec S2x800000 32) (dO dI : FVec F S50000 .f32) : FVec F S50000x128 .f32 :=
  (mulf (Host.scatterAdd scatter_S50000x128_S800000x1_S800000x128_1_0_0_1 (broadcastInDim S50000x128 ![] bcast_S_S50000x128 ((constant S_ .f32 0x00000000#32))) (dstRaw e) (extf .f32 (Host.gather gather_S50000x128_S800000x1_S800000x128_1_0_n_n_0_1_1128 (truncf .bf16 (mulf h (broadcastInDim S50000x128 ![0, 1] bcast_S50000x1_S50000x128_0_1 (broadcastInDim S50000x1 ![0] bcast_S50000_S50000x1_0 dO))) bitsLt_bf16_f32) (srcNorm e)) bitsLt_bf16_f32)) (broadcastInDim S50000x128 ![0, 1] bcast_S50000x1_S50000x128_0_1 (broadcastInDim S50000x1 ![0] bcast_S50000_S50000x1_0 dI)))

/-- A layer's 16-bit activations widened back to 32-bit floats. -/
def widen (p : FVec F S50000x128 .bf16) : FVec F S50000x128 .f32 :=
  (extf .f32 p bitsLt_bf16_f32)

end Cert.KernelIdeal.Spec

end
-- ==== Proof.KernelHost.lean ====
/-
  What the three stretches of host operations of the tiled program compute, each from whatever buffer contents it
  starts from: the first the two per-node factors and the first aggregation of the input rows; the second and the
  third the aggregation of the previous call's (widened) result with the same two factors.
-/
import proofs.«129009_j32332513804719_2_alg».proof.Proof.KernelSpec
import proofs.«129009_j32332513804719_2_alg».proof.Proof.Gen.KernelIdeal.Launch
import Idealize.ShloMosaic.Lib.StableHlo.Run

set_option maxRecDepth 8192

noncomputable section

namespace Cert.KernelIdeal.HostValue

open Cert.KernelIdeal Cert.KernelIdeal.Gen Idealize.ShloMosaic Idealize.ShloMosaic.TcCoe Idealize.SL.Sem Idealize.ShloMosaic.StableHlo
open Cert.KernelIdeal.Spec

variable {F : FTy → Type} [FloatOps F]

/-! ## Before the first call -/

set_option maxHeartbeats 4000000 in
theorem host0_agg (V : Valuation τ sig (Elt F)) :
    StableHlo.after hostOps0 V (Proc.devRef .tc main_v38)
      = agg (V (Proc.devRef .tc main_arg0)) (V (Proc.devRef .tc main_arg1)) (disOut (V (Proc.devRef .tc main_arg1))) (disIn (V (Proc.devRef .tc main_arg1))) := by
  after_results_simp <;> rfl

set_option maxHeartbeats 4000000 in
theorem host0_dis (V : Valuation τ sig (Elt F)) :
    StableHlo.after hostOps0 V (Proc.devRef .tc main_v15) = disOut (V (Proc.devRef .tc main_arg1))
    ∧ StableHlo.after hostOps0 V (Proc.devRef .tc main_v16) = disIn (V (Proc.devRef .tc main_arg1)) := by
  refine ⟨?_, ?_⟩ <;> after_results_simp <;> rfl

set_option maxHeartbeats 8000000 in
theorem host0_keep (V : Valuation τ sig (Elt F)) :
    StableHlo.after hostOps0 V (Proc.devRef .tc main_arg0) = V (Proc.devRef .tc main_arg0)
    ∧ StableHlo.after hostOps0 V (Proc.devRef .tc main_arg1) = V (Proc.devRef .tc main_arg1)
    ∧ StableHlo.after hostOps0 V (Proc.devRef .tc main_arg2) = V (Proc.devRef .tc main_arg2)
    ∧ StableHlo.after hostOps0 V (Proc.devRef .tc main_arg3) = V (Proc.devRef .tc main_arg3)
    ∧ StableHlo.after hostOps0 V (Proc.devRef .tc main_arg4) = V (Proc.devRef .tc main_arg4)
    ∧ StableHlo.after hostOps0 V (Proc.devRef .tc main_arg5) = V (Proc.devRef .tc main_arg5)
    ∧ StableHlo.after hostOps0 V (Proc.devRef .tc main_arg6) = V (Proc.devRef .tc main_arg6)
    ∧ StableHlo.after hostOps0 V (Proc.devRef .tc main_arg7) = V (Proc.devRef .tc main_arg7)
    ∧ StableHlo.after hostOps0 V (Proc.devRef .tc main_arg8) = V (Proc.devRef .tc main_arg8)
    ∧ StableHlo.after hostOps0 V (Proc.devRef .tc main_arg9) = V (Proc.devRef .tc main_arg9)
    ∧ StableHlo.after hostOps0 V (Proc.devRef .tc main_arg10) = V (Proc.devRef .tc main_arg10)
    ∧ StableHlo.after hostOps0 V (Proc.devRef .tc main_arg11) = V (Proc.devRef .tc main_arg11)
    ∧ StableHlo.after hostOps0 V (Proc.devRef .tc main_arg12) = V (Proc.devRef .tc main_arg12) := by
  refine ⟨?_, ?_, ?_, ?_, ?_, ?_, ?_, ?_, ?_, ?_, ?_, ?_, ?_⟩ <;> after_results_simp

/-! ## Between the first call and the second -/

set_option maxHeartbeats 4000000 in
theorem host1_agg (V : Valuation τ sig (Elt F)) :
    StableHlo.after hostOps1 V (Proc.devRef .tc main_v62)
      = agg (widen (V (Proc.devRef .tc main_v39))) (V (Proc.devRef .tc main_arg1)) (V (Proc.devRef .tc main_v15)) (V (Proc.devRef .tc main_v16)) := by
  after_results_simp <;> rfl

set_option maxHeartbeats 8000000 in
theorem host1_keep (V : Valuation τ sig (Elt F)) :
    StableHlo.after hostOps1 V (Proc.devRef .tc main_v39) = V (Proc.devRef .tc main_v39)
    ∧ StableHlo.after hostOps1 V (Proc.devRef .tc main_v15) = V (Proc.devRef .tc main_v15)
    ∧ StableHlo.after hostOps1 V (Proc.devRef .tc main_v16) = V (Proc.devRef .tc main_v16)
    ∧ StableHlo.after hostOps1 V (Proc.devRef .tc main_arg0) = V (Proc.devRef .tc main_arg0)
    ∧ StableHlo.after hostOps1 V (Proc.devRef .tc main_arg1) = V (Proc.devRef .tc main_arg1)
    ∧ StableHlo.after hostOps1 V (Proc.devRef .tc main_arg2) = V (Proc.devRef .tc main_arg2)
    ∧ StableHlo.after hostOps1 V (Proc.devRef .tc main_arg3) = V (Proc.devRef .tc main_arg3)
    ∧ StableHlo.after hostOps1 V (Proc.devRef .tc main_arg4) = V (Proc.devRef .tc main_arg4)
    ∧ StableHlo.after hostOps1 V (Proc.devRef .tc main_arg5) = V (Proc.devRef .tc main_arg5)
    ∧ StableHlo.after hostOps1 V (Proc.devRef .tc main_arg6) = V (Proc.devRef .tc main_arg6)
    ∧ StableHlo.after hostOps1 V (Proc.devRef .tc main_arg7) = V (Proc.devRef .tc main_arg7)
    ∧ StableHlo.after hostOps1 V (Proc.devRef .tc main_arg8) = V (Proc.devRef .tc main_arg8)
    ∧ StableHlo.after hostOps1 V (Proc.devRef .tc main_arg9) = V (Proc.devRef .tc main_arg9)
    ∧ StableHlo.after hostOps1 V (Proc.devRef .tc main_arg10) = V (Proc.devRef .tc main_arg10)
    ∧ StableHlo.after hostOps1 V (Proc.devRef .tc main_arg11) = V (Proc.devRef .tc main_arg11)
    ∧ StableHlo.after hostOps1 V (Proc.devRef .tc main_arg12) = V (Proc.devRef .tc main_arg12) := by
  refine ⟨?_, ?_, ?_, ?_, ?_, ?_, ?_, ?_, ?_, ?_, ?_, ?_, ?_, ?_, ?_, ?_⟩ <;> after_results_simp

/-! ## Between the second call and the third -/

set_option maxHeartbeats 4000000 in
theorem host2_agg (V : Valuation τ sig (Elt F)) :
    StableHlo.after hostOps2 V (Proc.devRef .tc main_v86)
      = agg (widen (V (Proc.devRef .tc main_v63))) (V (Proc.devRef .tc main_arg1)) (V (Proc.devRef .tc main_v15)) (V (Proc.devRef .tc main_v16)) := by
  after_results_simp <;> rfl

set_option maxHeartbeats 8000000 in
theorem host2_keep (V : Valuation τ sig (Elt F)) :
    StableHlo.after hostOps2 V (Proc.devRef .tc main_v63) = V (Proc.devRef .tc main_v63)
    ∧ StableHlo.after hostOps2 V (Proc.devRef .tc main_arg0) = V (Proc.devRef .tc main_arg0)
    ∧ StableHlo.after hostOps2 V (Proc.devRef .tc main_arg1) = V (Proc.devRef .tc main_arg1)
    ∧ StableHlo.after hostOps2 V (Proc.devRef .tc main_arg2) = V (Proc.devRef .tc main_arg2)
    ∧ StableHlo.after hostOps2 V (Proc.devRef .tc main_arg3) = V (Proc.devRef .tc main_arg3)
    ∧ StableHlo.after hostOps2 V (Proc.devRef .tc main_arg4) = V (Proc.devRef .tc main_arg4)
    ∧ StableHlo.after hostOps2 V (Proc.devRef .tc main_arg5) = V (Proc.devRef .tc main_arg5)
    ∧ StableHlo.after hostOps2 V (Proc.devRef .tc main_arg6) = V (Proc.devRef .tc main_arg6)
    ∧ StableHlo.after hostOps2 V (Proc.devRef .tc main_arg7) = V (Proc.devRef .tc main_arg7)
    ∧ StableHlo.after hostOps2 V (Proc.devRef .tc main_arg8) = V (Proc.devRef .tc main_arg8)
    ∧ StableHlo.after hostOps2 V (Proc.devRef .tc main_arg9) = V (Proc.devRef .tc main_arg9)
    ∧ StableHlo.after hostOps2 V (Proc.devRef .tc main_arg10) = V (Proc.devRef .tc main_arg10)
    ∧ StableHlo.after hostOps2 V (Proc.devRef .tc main_arg11) = V (Proc.devRef .tc main_arg11)
    ∧ StableHlo.after hostOps2 V (Proc.devRef .tc main_arg12) = V (Proc.devRef .tc main_arg12) := by
  refine ⟨?_, ?_, ?_, ?_, ?_, ?_, ?_, ?_, ?_, ?_, ?_, ?_, ?_, ?_⟩ <;> after_results_simp

end Cert.KernelIdeal.HostValue

end
-- ==== Proof.LibDot.lean ====
/-
  A product of two matrices at one entry is a sum over the one contracted axis.  Two such sums — over different
  dimension records, of different operands — are equal as soon as their factors agree position by position
  along that axis.  This is what identifies a row block's product with the matching rows of the whole product:
  the block's row r of the left operand IS row (block offset + r) of the whole left operand, the right operand
  is the same matrix, and the contracted positions correspond one to one.
-/
import Idealize.ShloMosaic.Lib.ValueIdx
import Idealize.ShloMosaic.PureOps.Ideal.Laws

noncomputable section

namespace Cert.LibDot

open Idealize.ShloMosaic Idealize.ShloMosaic.ValueIdx

/-- The sum over a one-axis contraction index, re-indexed by the axis's positions `0 … n-1`. -/
theorem sum_contr {sl sr so : Shape} (d : DotDims sl sr so) (n : Nat) (hr : d.contr.rank = 1)
    (hs : d.contr.size ⟨0, by omega⟩ = n) (f : d.contr.Idx → EReal) :
    ∑ k : d.contr.Idx, f k = ∑ k : Fin n, f ((contrEquiv1 d n hr hs).symm k) :=
  (Equiv.sum_comp (contrEquiv1 d n hr hs).symm f).symm

/-- Two one-axis contractions of the same length whose left factors agree at every position, and whose right
    factors do, are the same sum. -/
theorem dot_sum_eq {sl sr so sl' sr' so' : Shape} (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (A : sl.Idx → EReal) (B : sr.Idx → EReal) (A' : sl'.Idx → EReal) (B' : sr'.Idx → EReal) (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    ∑ k : d.contr.Idx, A (d.lhsIdx j k) * B (d.rhsIdx j k) = ∑ k : d'.contr.Idx, A' (d'.lhsIdx j' k) * B' (d'.rhsIdx j' k) := by
  rw [sum_contr d n hr hs, sum_contr d' n hr' hs']
  exact Finset.sum_congr rfl fun k _ => by rw [hA k, hB k]

/-- A block product into the zero accumulator against the host's whole product, entry against entry: equal when
    the factors agree along the contracted axis. -/
theorem matmul_eq_dotGeneral {sl sr so sl' sr' so' : Shape} {φ₁ φ₂ φ₁' φ₂' : FTy}
    (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (prec prec' : Option ContractPrecision) (sched : HostSchedule)
    (A : FVec Ideal sl φ₁) (B : FVec Ideal sr φ₂) (A' : FVec Ideal sl' φ₁') (B' : FVec Ideal sr' φ₂') (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    FloatOps.matmul d prec A B (constant so .f32 0x00000000#32) j = FloatOps.dotGeneral d' prec' sched A' B' j' := by
  rw [Ideal.matmul_constant_zero_apply, Ideal.dotGeneral_apply]
  exact dot_sum_eq d d' n hr hs hr' hs' A B A' B' j j' hA hB

end Cert.LibDot

end
-- ==== Proof.RefSpec.lean ====
/-
  The reference computation, stage by stage, as functions of its argument arrays.

  A graph has 50000 nodes and 800000 edges, listed as two rows of node numbers: the sources and the destinations.
  A node's out-degree counts the edges that name it as their source, its in-degree those that name it as their
  destination (an edge with a node number outside 0 … 49999 is counted nowhere); both are clamped below at 1.
  An edge's weight is the reciprocal square root of (out-degree of its source) × (in-degree of its destination),
  both read after negative node numbers are wrapped around by 50000 and the result clamped into range.
  One aggregation sends to node i the sum, over the edges with destination i, of the source's row times the
  edge's weight.  One layer is  leaky(agg · W₁ + h · W₂ + b)  with slope 0.2 below zero; the result is
  tanh(h₃ · W_d + b_d)  of the third layer's activation.
-/
import proofs.«129009_j32332513804719_2_alg».proof.Proof.Gen.ReferenceIdeal

noncomputable section

namespace Cert.ReferenceIdeal.Spec

open Cert.ReferenceIdeal Cert.ReferenceIdeal.Gen Idealize.ShloMosaic Idealize.ShloMosaic.TcCoe

variable {F : FTy → Type} [FloatOps F]

/-- The edges' source node numbers as a column, as given. -/
def srcRaw (e : IVec S2x800000 32) : IVec S800000x1 32 :=
  (broadcastInDim S800000x1 ![0] bcast_S800000_S800000x1_0 (shapeCast S800000 (extractStridedSlice S1x800000 ![0, 0] e slices_S2x800000_S1x800000_0_0) shapeCasts_S1x800000_S800000))

/-- The edges' destination node numbers as a column, as given. -/
def dstRaw (e : IVec S2x800000 32) : IVec S800000x1 32 :=
  (broadcastInDim S800000x1 ![0] bcast_S800000_S800000x1_0 (shapeCast S800000 (extractStridedSlice S1x800000 ![1, 0] e slices_S2x800000_S1x800000_1_0) shapeCasts_S1x800000_S800000))

/-- The source node numbers with the negative ones wrapped around by 50000. -/
def srcNorm (e : IVec S2x800000 32) : IVec S800000x1 32 :=
  (broadcastInDim S800000x1 ![0] bcast_S800000_S800000x1_0 (select (cmpi .slt (shapeCast S800000 (extractStridedSlice S1x800000 ![0, 0] e slices_S2x800000_S1x800000_0_0) shapeCasts_S1x800000_S800000) (broadcastInDim S800000 ![] bcast_S_S800000 ((constantI S_ 32 0#32)))) (addi (shapeCast S800000 (extractStridedSlice S1x800000 ![0, 0] e slices_S2x800000_S1x800000_0_0) shapeCasts_S1x800000_S800000) (broadcastInDim S800000 ![] bcast_S_S800000 ((constantI S_ 32 50000#32)))) (shapeCast S800000 (extractStridedSlice S1x800000 ![0, 0] e slices_S2x800000_S1x800000_0_0) shapeCasts_S1x800000_S800000)))

/-- The destination node numbers with the negative ones wrapped around by 50000. -/
def dstNorm (e : IVec S2x800000 32) : IVec S800000x1 32 :=
  (broadcastInDim S800000x1 ![0] bcast_S800000_S800000x1_0 (select (cmpi .slt (shapeCast S800000 (extractStridedSlice S1x800000 ![1, 0] e slices_S2x800000_S1x800000_1_0) shapeCasts_S1x800000_S800000) (broadcastInDim S800000 ![] bcast_S_S800000 ((constantI S_ 32 0#32)))) (addi (shapeCast S800000 (extractStridedSlice S1x800000 ![1, 0] e slices_S2x800000_S1x800000_1_0) shapeCasts_S1x800000_S800000) (broadcastInDim S800000 ![] bcast_S_S800000 ((constantI S_ 32 50000#32)))) (shapeCast S800000 (extractStridedSlice S1x800000 ![1, 0] e slices_S2x800000_S1x800000_1_0) shapeCasts_S1x800000_S800000)))

/-- The out-degree of every node, clamped below at 1. -/
def degOut (e : IVec S2x800000 32) : FVec F S50000 .f32 :=
  (maximumf (Host.scatterAdd scatter_S50000_S800000x1_S800000_n_0_0_1 (broadcastInDim S50000 ![] bcast_S_S50000 ((constant S_ .f32 0x00000000#32))) (srcRaw e) (broadcastInDim S800000 ![] bcast_S_S800000 ((constant S_ .f32 0x3F800000#32)))) (broadcastInDim S50000 ![] bcast_S_S50000 ((constant S_ .f32 0x3F800000#32))))

/-- The in-degree of every node, clamped below at 1. -/
def degIn (e : IVec S2x800000 32) : FVec F S50000 .f32 :=
  (maximumf (Host.scatterAdd scatter_S50000_S800000x1_S800000_n_0_0_1 (broadcastInDim S50000 ![] bcast_S_S50000 ((constant S_ .f32 0x00000000#32))) (dstRaw e) (broadcastInDim S800000 ![] bcast_S_S800000 ((constant S_ .f32 0x3F800000#32)))) (broadcastInDim S50000 ![] bcast_S_S50000 ((constant S_ .f32 0x3F800000#32))))

/-- The weight of every edge: the reciprocal square root of its source's out-degree times its destination's
    in-degree. -/
def edgeNorm (e : IVec S2x800000 32) : FVec F S800000 .f32 :=
  (Host.rsqrt (mulf (Host.gather gather_S50000_S800000x1_S800000_n_0_n_n_0_1_1 (degOut e) (srcNorm e)) (Host.gather gather_S50000_S800000x1_S800000_n_0_n_n_0_1_1 (degIn e) (dstNorm e))))

/-- One aggregation: at node i, the sum over the edges into i of the source's row of `h` times the edge's weight. -/
def agg (h : FVec F S50000x128 .f32) (e : IVec S2x800000 32) (nrm : FVec F S800000 .f32) : FVec F S50000x128 .f32 :=
  (Host.scatterAdd scatter_S50000x128_S800000x1_S800000x128_1_0_0_1 (broadcastInDim S50000x128 ![] bcast_S_S50000x128 ((constant S_ .f32 0x00000000#32))) (dstRaw e) (mulf (Host.gather gather_S50000x128_S800000x1_S800000x128_1_0_n_n_0_1_1128 h (srcNorm e)) (broadcastInDim S800000x128 ![0, 1] bcast_S800000x1_S800000x128_0_1 (broadcastInDim S800000x1 ![0] bcast_S800000_S800000x1_0 nrm))))

/-- A layer before its activation:  a · W₁ + h · W₂ + b. -/
def pre (a h : FVec F S50000x128 .f32) (w1 w2 : FVec F S128x128 .f32) (b : FVec F S128 .f32) : FVec F S50000x128 .f32 :=
  (addf (addf (Host.dotGeneral dot_S50000x128_S128x128_S50000x128_1_0_0_1_n_n none a w1) (Host.dotGeneral dot_S50000x128_S128x128_S50000x128_1_0_0_1_n_n none h w2)) (broadcastInDim S50000x128 ![0, 1] bcast_S1x128_S50000x128_0_1 (broadcastInDim S1x128 ![1] bcast_S128_S1x128_1 b)))

/-- The activation: z where z ≥ 0, and 0.2 · z elsewhere. -/
def leaky (z : FVec F S50000x128 .f32) : FVec F S50000x128 .f32 :=
  (select (cmpf .oge z (broadcastInDim S50000x128 ![] bcast_S_S50000x128 ((constant S_ .f32 0x00000000#32)))) z (mulf (broadcastInDim S50000x128 ![] bcast_S_S50000x128 ((constant S_ .f32 0x3E4CCCCD#32))) z))

/-- One whole layer on the activations `h`. -/
def layer (h : FVec F S50000x128 .f32) (e : IVec S2x800000 32) (nrm : FVec F S800000 .f32) (w1 w2 : FVec F S128x128 .f32) (b : FVec F S128 .f32) :
    FVec F S50000x128 .f32 :=
  leaky (pre (agg h e nrm) h w1 w2 b)

/-- The read-out:  tanh(h · W_d + b_d). -/
def dense (h : FVec F S50000x128 .f32) (wd : FVec F S128x16 .f32) (bd : FVec F S16 .f32) : FVec F S50000x16 .f32 :=
  (Host.tanh (addf (Host.dotGeneral dot_S50000x128_S128x16_S50000x16_1_0_0_1_n_n none h wd) (broadcastInDim S50000x16 ![0, 1] bcast_S1x16_S50000x16_0_1 (broadcastInDim S1x16 ![1] bcast_S16_S1x16_1 bd))))

/-- The reference's result as one function of the thirteen argument arrays. -/
def out (x : FVec F S50000x128 .f32) (e : IVec S2x800000 32) (w11 w21 : FVec F S128x128 .f32) (b1 : FVec F S128 .f32)
    (w12 w22 : FVec F S128x128 .f32) (b2 : FVec F S128 .f32) (w13 w23 : FVec F S128x128 .f32) (b3 : FVec F S128 .f32)
    (wd : FVec F S128x16 .f32) (bd : FVec F S16 .f32) : FVec F S50000x16 .f32 :=
  dense (layer (layer (layer x e (edgeNorm e) w11 w21 b1) e (edgeNorm e) w12 w22 b2) e (edgeNorm e) w13 w23 b3) wd bd

end Cert.ReferenceIdeal.Spec

end
-- ==== Proof.LayerPoint.lean ====
/-
  One layer at one entry: a block's computation against the whole arrays'.

  Entry (r, c) of  leaky(A · W₁ + H · W₂ + b)  depends on row r of A and of H, on column c of W₁ and of W₂ and on b at c:

      z(r, c) = ∑ₖ A(r, k) · W₁(k, c) + ∑ₖ H(r, k) · W₂(k, c) + b(c),     leaky z = z if z ≥ 0 else 0.2 · z.

  A block of 5000 rows computes the same sums from its own rows, so an entry of the block's result is the entry of the
  whole arrays' result on the matching row, whatever the other rows hold.  The narrowings to 16-bit floats inside the
  block's computation are the identity at the exact instance.  The read-out  tanh(h · W_d + b_d)  likewise.
-/
import Idealize.ShloMosaic.PureOps.Ideal
import Idealize.ShloMosaic.PureOps.Ideal.Laws
import Idealize.ShloMosaic.Lib.ValueIdx
import Idealize.ShloMosaic.Lib.Pipeline.Value
import proofs.«129009_j32332513804719_2_alg».proof.Proof.LibDot
import proofs.«129009_j32332513804719_2_alg».proof.Proof.Gen.KernelIdeal
import proofs.«129009_j32332513804719_2_alg».proof.Proof.RefSpec

noncomputable section

namespace Cert.LayerPoint

open Idealize.ShloMosaic Idealize.ShloMosaic.ValueIdx
open Cert.KernelIdeal.Gen Cert.ReferenceIdeal.Gen

/-! ## A vector laid along every row, read at an entry -/

section Bias
variable {α : Type}

/-- The block's way: the vector cast to one row, the row repeated down `m` rows. -/
theorem rowCast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) :
    broadcastTo ⟨2, ![m, n]⟩ (shapeCast ⟨2, ![1, n]⟩ x h1) hb i = x (ix1 (⟨(i 1).val, (i 1).isLt⟩ : Fin n)) := by
  have e1 := broadcastTo_apply (shapeCast ⟨2, ![1, n]⟩ x h1) hb i (ix2 (0 : Fin 1) (⟨(i 1).val, (i 1).isLt⟩ : Fin n)) (by
    intro a
    match a with
    | ⟨0, _⟩ => rfl
    | ⟨1, _⟩ =>
      show (i 1).val = if n = 1 then 0 else (i 1).val
      split
      · have e : (i 1).val < n := (i 1).isLt; omega
      · rfl)
  have e2 := shapeCast_apply x h1 (ix2 (0 : Fin 1) (⟨(i 1).val, (i 1).isLt⟩ : Fin n)) (ix1 (⟨(i 1).val, (i 1).isLt⟩ : Fin n)) (by
    rw [Shape.rowMajor_val_two, Shape.rowMajor_val_one]; show (i 1).val = 0 * n + (i 1).val; omega)
  exact e1.trans e2

/-- The host's way: the vector made one row along axis 1, the row repeated down `m` rows. -/
theorem rowBroadcast_apply {m n : Nat} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1])
    (i : (⟨2, ![m, n]⟩ : Shape).Idx) :
    broadcastInDim ⟨2, ![m, n]⟩ ![0, 1] h2 (broadcastInDim ⟨2, ![1, n]⟩ ![1] h1 x) i
      = x (ix1 (⟨(i 1).val, (i 1).isLt⟩ : Fin n)) :=
  (broadcastInDim_apply ![0, 1] h2 (broadcastInDim ⟨2, ![1, n]⟩ ![1] h1 x) i
      (ix2 (0 : Fin 1) (⟨(i 1).val, (i 1).isLt⟩ : Fin n)) (fun a => by
    match a with
    | ⟨0, _⟩ => exact (if_pos rfl).symm
    | ⟨1, _⟩ =>
      show (i 1).val = if n = 1 then 0 else (i 1).val
      split
      · have e : (i 1).val < n := (i 1).isLt; omega
      · rfl)).trans
  (broadcastInDim_apply ![1] h1 x (ix2 (0 : Fin 1) (⟨(i 1).val, (i 1).isLt⟩ : Fin n))
      (ix1 (⟨(i 1).val, (i 1).isLt⟩ : Fin n)) (fun a => by
    match a with
    | ⟨0, _⟩ =>
      show (i 1).val = if n = 1 then 0 else (i 1).val
      split
      · have e : (i 1).val < n := (i 1).isLt; omega
      · rfl))

end Bias

/-! ## The products -/

/-! ### The contraction positions of `kd`: row `(j 0)` of the left operand against column `(j 1)` of the right -/

theorem kd_lhs0 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx j q 0).val = (j 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem kd_lhs1 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx j q 1).val = (q ⟨0, by decide⟩).val :=
  Cert.KernelIdeal.dot_S5000x128_S128x128_S5000x128_1_0_0_1_n_n.lhsIdx_val_of_single rfl j q
theorem kd_rhs0 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx j q 0).val = (q ⟨0, by decide⟩).val :=
  Cert.KernelIdeal.dot_S5000x128_S128x128_S5000x128_1_0_0_1_n_n.rhsIdx_val_of_single rfl j q
theorem kd_rhs1 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx j q 1).val = (j 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl
theorem kd_lhs (j : Cert.KernelIdeal.S5000x128.Idx) (k : Fin 128) :
    Cert.KernelIdeal.dot_S5000x128_S128x128_S5000x128_1_0_0_1_n_n.lhsIdx j ((contrEquiv1 Cert.KernelIdeal.dot_S5000x128_S128x128_S5000x128_1_0_0_1_n_n 128 rfl rfl).symm k) = ix2 (⟨(j 0).val, (j 0).isLt⟩ : Fin 5000) k :=
  funext fun a => Fin.ext (by
    match a with
    | ⟨0, _⟩ => exact kd_lhs0 _ _
    | ⟨1, _⟩ => exact (kd_lhs1 _ _).trans (contrEquiv1_symm_val Cert.KernelIdeal.dot_S5000x128_S128x128_S5000x128_1_0_0_1_n_n 128 rfl rfl k))
theorem kd_rhs (j : Cert.KernelIdeal.S5000x128.Idx) (k : Fin 128) :
    Cert.KernelIdeal.dot_S5000x128_S128x128_S5000x128_1_0_0_1_n_n.rhsIdx j ((contrEquiv1 Cert.KernelIdeal.dot_S5000x128_S128x128_S5000x128_1_0_0_1_n_n 128 rfl rfl).symm k) = ix2 k (⟨(j 1).val, (j 1).isLt⟩ : Fin 128) :=
  funext fun a => Fin.ext (by
    match a with
    | ⟨0, _⟩ => exact (kd_rhs0 _ _).trans (contrEquiv1_symm_val Cert.KernelIdeal.dot_S5000x128_S128x128_S5000x128_1_0_0_1_n_n 128 rfl rfl k)
    | ⟨1, _⟩ => exact kd_rhs1 _ _)

/-! ### The contraction positions of `rd`: row `(j 0)` of the left operand against column `(j 1)` of the right -/

theorem rd_lhs0 (j : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx j q 0).val = (j 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem rd_lhs1 (j : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx j q 1).val = (q ⟨0, by decide⟩).val :=
  Cert.ReferenceIdeal.dot_S50000x128_S128x128_S50000x128_1_0_0_1_n_n.lhsIdx_val_of_single rfl j q
theorem rd_rhs0 (j : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx j q 0).val = (q ⟨0, by decide⟩).val :=
  Cert.ReferenceIdeal.dot_S50000x128_S128x128_S50000x128_1_0_0_1_n_n.rhsIdx_val_of_single rfl j q
theorem rd_rhs1 (j : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx j q 1).val = (j 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl
theorem rd_lhs (j : Cert.ReferenceIdeal.S50000x128.Idx) (k : Fin 128) :
    Cert.ReferenceIdeal.dot_S50000x128_S128x128_S50000x128_1_0_0_1_n_n.lhsIdx j ((contrEquiv1 Cert.ReferenceIdeal.dot_S50000x128_S128x128_S50000x128_1_0_0_1_n_n 128 rfl rfl).symm k) = ix2 (⟨(j 0).val, (j 0).isLt⟩ : Fin 50000) k :=
  funext fun a => Fin.ext (by
    match a with
    | ⟨0, _⟩ => exact rd_lhs0 _ _
    | ⟨1, _⟩ => exact (rd_lhs1 _ _).trans (contrEquiv1_symm_val Cert.ReferenceIdeal.dot_S50000x128_S128x128_S50000x128_1_0_0_1_n_n 128 rfl rfl k))
theorem rd_rhs (j : Cert.ReferenceIdeal.S50000x128.Idx) (k : Fin 128) :
    Cert.ReferenceIdeal.dot_S50000x128_S128x128_S50000x128_1_0_0_1_n_n.rhsIdx j ((contrEquiv1 Cert.ReferenceIdeal.dot_S50000x128_S128x128_S50000x128_1_0_0_1_n_n 128 rfl rfl).symm k) = ix2 k (⟨(j 1).val, (j 1).isLt⟩ : Fin 128) :=
  funext fun a => Fin.ext (by
    match a with
    | ⟨0, _⟩ => exact (rd_rhs0 _ _).trans (contrEquiv1_symm_val Cert.ReferenceIdeal.dot_S50000x128_S128x128_S50000x128_1_0_0_1_n_n 128 rfl rfl k)
    | ⟨1, _⟩ => exact rd_rhs1 _ _)

/-! ### The contraction positions of `kd16`: row `(j 0)` of the left operand against column `(j 1)` of the right -/

theorem kd16_lhs0 (j : Cert.KernelIdeal.S5000x16.Idx) (q : Cert.KernelIdeal.dot_S5000x128_S128x16_S5000x16_1_0_0_1_n_n.contr.Idx) : (Cert.KernelIdeal.dot_S5000x128_S128x16_S5000x16_1_0_0_1_n_n.lhsIdx j q 0).val = (j 0).val := by
  unfold DotDims.lhsIdx
  rw [dif_neg (show ¬(0 : Fin Cert.KernelIdeal.S5000x128.rank) ∈ Cert.KernelIdeal.dot_S5000x128_S128x16_S5000x16_1_0_0_1_n_n.lhsBatch by decide), dif_pos (show (0 : Fin Cert.KernelIdeal.S5000x128.rank) ∈ Cert.KernelIdeal.dot_S5000x128_S128x16_S5000x16_1_0_0_1_n_n.lhsNonContracting by decide)]
  rfl
theorem kd16_lhs1 (j : Cert.KernelIdeal.S5000x16.Idx) (q : Cert.KernelIdeal.dot_S5000x128_S128x16_S5000x16_1_0_0_1_n_n.contr.Idx) : (Cert.KernelIdeal.dot_S5000x128_S128x16_S5000x16_1_0_0_1_n_n.lhsIdx j q 1).val = (q ⟨0, by decide⟩).val :=
  Cert.KernelIdeal.dot_S5000x128_S128x16_S5000x16_1_0_0_1_n_n.lhsIdx_val_of_single rfl j q
theorem kd16_rhs0 (j : Cert.KernelIdeal.S5000x16.Idx) (q : Cert.KernelIdeal.dot_S5000x128_S128x16_S5000x16_1_0_0_1_n_n.contr.Idx) : (Cert.KernelIdeal.dot_S5000x128_S128x16_S5000x16_1_0_0_1_n_n.rhsIdx j q 0).val = (q ⟨0, by decide⟩).val :=
  Cert.KernelIdeal.dot_S5000x128_S128x16_S5000x16_1_0_0_1_n_n.rhsIdx_val_of_single rfl j q
theorem kd16_rhs1 (j : Cert.KernelIdeal.S5000x16.Idx) (q : Cert.KernelIdeal.dot_S5000x128_S128x16_S5000x16_1_0_0_1_n_n.contr.Idx) : (Cert.KernelIdeal.dot_S5000x128_S128x16_S5000x16_1_0_0_1_n_n.rhsIdx j q 1).val = (j 1).val := by
  unfold DotDims.rhsIdx
  rw [dif_neg (show ¬(1 : Fin Cert.KernelIdeal.S128x16.rank) ∈ Cert.KernelIdeal.dot_S5000x128_S128x16_S5000x16_1_0_0_1_n_n.rhsBatch by decide), dif_pos (show (1 : Fin Cert.KernelIdeal.S128x16.rank) ∈ Cert.KernelIdeal.dot_S5000x128_S128x16_S5000x16_1_0_0_1_n_n.rhsNonContracting by decide)]
  rfl
theorem kd16_lhs (j : Cert.KernelIdeal.S5000x16.Idx) (k : Fin 128) :
    Cert.KernelIdeal.dot_S5000x128_S128x16_S5000x16_1_0_0_1_n_n.lhsIdx j ((contrEquiv1 Cert.KernelIdeal.dot_S5000x128_S128x16_S5000x16_1_0_0_1_n_n 128 rfl rfl).symm k) = ix2 (⟨(j 0).val, (j 0).isLt⟩ : Fin 5000) k :=
  funext fun a => Fin.ext (by
    match a with
    | ⟨0, _⟩ => exact kd16_lhs0 _ _
    | ⟨1, _⟩ => exact (kd16_lhs1 _ _).trans (contrEquiv1_symm_val Cert.KernelIdeal.dot_S5000x128_S128x16_S5000x16_1_0_0_1_n_n 128 rfl rfl k))
theorem kd16_rhs (j : Cert.KernelIdeal.S5000x16.Idx) (k : Fin 128) :
    Cert.KernelIdeal.dot_S5000x128_S128x16_S5000x16_1_0_0_1_n_n.rhsIdx j ((contrEquiv1 Cert.KernelIdeal.dot_S5000x128_S128x16_S5000x16_1_0_0_1_n_n 128 rfl rfl).symm k) = ix2 k (⟨(j 1).val, (j 1).isLt⟩ : Fin 16) :=
  funext fun a => Fin.ext (by
    match a with
    | ⟨0, _⟩ => exact (kd16_rhs0 _ _).trans (contrEquiv1_symm_val Cert.KernelIdeal.dot_S5000x128_S128x16_S5000x16_1_0_0_1_n_n 128 rfl rfl k)
    | ⟨1, _⟩ => exact kd16_rhs1 _ _)

/-! ### The contraction positions of `rd16`: row `(j 0)` of the left operand against column `(j 1)` of the right -/

theorem rd16_lhs0 (j : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.lhsIdx j q 0).val = (j 0).val := by
  unfold DotDims.lhsIdx
  rw [dif_neg (show ¬(0 : Fin Cert.ReferenceIdeal.S50000x128.rank) ∈ Cert.ReferenceIdeal.dot_S50000x128_S128x16_S50000x16_1_0_0_1_n_n.lhsBatch by decide), dif_pos (show (0 : Fin Cert.ReferenceIdeal.S50000x128.rank) ∈ Cert.ReferenceIdeal.dot_S50000x128_S128x16_S50000x16_1_0_0_1_n_n.lhsNonContracting by decide)]
  rfl
theorem rd16_lhs1 (j : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.lhsIdx j q 1).val = (q ⟨0, by decide⟩).val :=
  Cert.ReferenceIdeal.dot_S50000x128_S128x16_S50000x16_1_0_0_1_n_n.lhsIdx_val_of_single rfl j q
theorem rd16_rhs0 (j : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.rhsIdx j q 0).val = (q ⟨0, by decide⟩).val :=
  Cert.ReferenceIdeal.dot_S50000x128_S128x16_S50000x16_1_0_0_1_n_n.rhsIdx_val_of_single rfl j q
theorem rd16_rhs1 (j : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.rhsIdx j q 1).val = (j 1).val := by
  unfold DotDims.rhsIdx
  rw [dif_neg (show ¬(1 : Fin Cert.ReferenceIdeal.S128x16.rank) ∈ Cert.ReferenceIdeal.dot_S50000x128_S128x16_S50000x16_1_0_0_1_n_n.rhsBatch by decide), dif_pos (show (1 : Fin Cert.ReferenceIdeal.S128x16.rank) ∈ Cert.ReferenceIdeal.dot_S50000x128_S128x16_S50000x16_1_0_0_1_n_n.rhsNonContracting by decide)]
  rfl
theorem rd16_lhs (j : Cert.ReferenceIdeal.S50000x16.Idx) (k : Fin 128) :
    Cert.ReferenceIdeal.dot_S50000x128_S128x16_S50000x16_1_0_0_1_n_n.lhsIdx j ((contrEquiv1 Cert.ReferenceIdeal.dot_S50000x128_S128x16_S50000x16_1_0_0_1_n_n 128 rfl rfl).symm k) = ix2 (⟨(j 0).val, (j 0).isLt⟩ : Fin 50000) k :=
  funext fun a => Fin.ext (by
    match a with
    | ⟨0, _⟩ => exact rd16_lhs0 _ _
    | ⟨1, _⟩ => exact (rd16_lhs1 _ _).trans (contrEquiv1_symm_val Cert.ReferenceIdeal.dot_S50000x128_S128x16_S50000x16_1_0_0_1_n_n 128 rfl rfl k))
theorem rd16_rhs (j : Cert.ReferenceIdeal.S50000x16.Idx) (k : Fin 128) :
    Cert.ReferenceIdeal.dot_S50000x128_S128x16_S50000x16_1_0_0_1_n_n.rhsIdx j ((contrEquiv1 Cert.ReferenceIdeal.dot_S50000x128_S128x16_S50000x16_1_0_0_1_n_n 128 rfl rfl).symm k) = ix2 k (⟨(j 1).val, (j 1).isLt⟩ : Fin 16) :=
  funext fun a => Fin.ext (by
    match a with
    | ⟨0, _⟩ => exact (rd16_rhs0 _ _).trans (contrEquiv1_symm_val Cert.ReferenceIdeal.dot_S50000x128_S128x16_S50000x16_1_0_0_1_n_n 128 rfl rfl k)
    | ⟨1, _⟩ => exact rd16_rhs1 _ _)

/-- A block's product into the zero accumulator at `y` is the whole product at `i`, when row `y 0` of the block is
    row `i 0` of the whole left operand and column `y 1` of the block's right operand is column `i 1` of the whole one. -/
theorem block_dot {φ₁ φ₂ : FTy} (X : FVec Ideal Cert.KernelIdeal.S5000x128 φ₁) (W : FVec Ideal Cert.KernelIdeal.S128x128 φ₂)
    (A : FVec Ideal Cert.ReferenceIdeal.S50000x128 .f32) (W' : FVec Ideal Cert.ReferenceIdeal.S128x128 .f32) (y : Cert.KernelIdeal.S5000x128.Idx) (i : Cert.ReferenceIdeal.S50000x128.Idx)
    (hrow : ∀ k : Fin 128, X (ix2 (⟨(y 0).val, (y 0).isLt⟩ : Fin 5000) k) = A (ix2 (⟨(i 0).val, (i 0).isLt⟩ : Fin 50000) k))
    (hcol : ∀ k : Fin 128, W (ix2 k (⟨(y 1).val, (y 1).isLt⟩ : Fin 128)) = W' (ix2 k (⟨(i 1).val, (i 1).isLt⟩ : Fin 128))) :
    matmul Cert.KernelIdeal.dot_S5000x128_S128x128_S5000x128_1_0_0_1_n_n none X W (constant Cert.KernelIdeal.S5000x128 .f32 0x00000000#32) y = Host.dotGeneral Cert.ReferenceIdeal.dot_S50000x128_S128x128_S50000x128_1_0_0_1_n_n none A W' i :=
  Cert.LibDot.matmul_eq_dotGeneral Cert.KernelIdeal.dot_S5000x128_S128x128_S5000x128_1_0_0_1_n_n Cert.ReferenceIdeal.dot_S50000x128_S128x128_S50000x128_1_0_0_1_n_n 128 rfl rfl rfl rfl none none .single X W A W' y i
    (fun k => by rw [kd_lhs, rd_lhs]; exact hrow k)
    (fun k => by rw [kd_rhs, rd_rhs]; exact hcol k)

/-- A block's product into the zero accumulator at `y` is the whole product at `i`, when row `y 0` of the block is
    row `i 0` of the whole left operand and column `y 1` of the block's right operand is column `i 1` of the whole one. -/
theorem block_dot16 {φ₁ φ₂ : FTy} (X : FVec Ideal Cert.KernelIdeal.S5000x128 φ₁) (W : FVec Ideal Cert.KernelIdeal.S128x16 φ₂)
    (A : FVec Ideal Cert.ReferenceIdeal.S50000x128 .f32) (W' : FVec Ideal Cert.ReferenceIdeal.S128x16 .f32) (y : Cert.KernelIdeal.S5000x16.Idx) (i : Cert.ReferenceIdeal.S50000x16.Idx)
    (hrow : ∀ k : Fin 128, X (ix2 (⟨(y 0).val, (y 0).isLt⟩ : Fin 5000) k) = A (ix2 (⟨(i 0).val, (i 0).isLt⟩ : Fin 50000) k))
    (hcol : ∀ k : Fin 128, W (ix2 k (⟨(y 1).val, (y 1).isLt⟩ : Fin 16)) = W' (ix2 k (⟨(i 1).val, (i 1).isLt⟩ : Fin 16))) :
    matmul Cert.KernelIdeal.dot_S5000x128_S128x16_S5000x16_1_0_0_1_n_n none X W (constant Cert.KernelIdeal.S5000x16 .f32 0x00000000#32) y = Host.dotGeneral Cert.ReferenceIdeal.dot_S50000x128_S128x16_S50000x16_1_0_0_1_n_n none A W' i :=
  Cert.LibDot.matmul_eq_dotGeneral Cert.KernelIdeal.dot_S5000x128_S128x16_S5000x16_1_0_0_1_n_n Cert.ReferenceIdeal.dot_S50000x128_S128x16_S50000x16_1_0_0_1_n_n 128 rfl rfl rfl rfl none none .single X W A W' y i
    (fun k => by rw [kd16_lhs, rd16_lhs]; exact hrow k)
    (fun k => by rw [kd16_rhs, rd16_rhs]; exact hcol k)

/-! ## The activation at one value -/

/-- z where z ≥ 0, and 0.2 · z elsewhere (0.2 as its 32-bit pattern, the same word in both programs). -/
def leakyAt (z : Ideal .f32) : Ideal .f32 :=
  Scalar.select (FloatOps.cmpf .oge z (Ideal.ofBits .f32 0x00000000#32)) z (FloatOps.mulf (Ideal.ofBits .f32 0x3E4CCCCD#32) z)

/-- The whole arrays' activation at an entry. -/
theorem leaky_apply (z : FVec Ideal Cert.ReferenceIdeal.S50000x128 .f32) (i : Cert.ReferenceIdeal.S50000x128.Idx) :
    Cert.ReferenceIdeal.Spec.leaky z i = leakyAt (z i) := rfl

/-- The block's activation (narrowed to a 16-bit float afterwards) at an entry. -/
theorem blockLeaky_apply (v : FVec Ideal Cert.KernelIdeal.S5000x128 .f32) (y : Cert.KernelIdeal.S5000x128.Idx) :
    (truncf .bf16 (select (cmpf .oge v (broadcast Cert.KernelIdeal.S5000x128 (Scalar.ofBits .f32 0x00000000#32))) v
        (mulf (broadcast Cert.KernelIdeal.S5000x128 (Scalar.ofBits .f32 0x3E4CCCCD#32)) v)) Cert.KernelIdeal.Facts₀.bitsLt_bf16_f32 : FVec Ideal Cert.KernelIdeal.S5000x128 .bf16) y
      = leakyAt (v y) := rfl

/-! ## The pre-activation at one entry -/

/-- The block's  a · W₁ + h · W₂ + b  at `y` is the whole arrays' at `i`, when the block's row `y 0` of each left operand is
    the whole operand's row `i 0`, the weights' columns `y 1` and `i 1` agree, and so does the bias there. -/
theorem pre_apply {φa φh φ₁ φ₂ : FTy} (XA : FVec Ideal Cert.KernelIdeal.S5000x128 φa) (XH : FVec Ideal Cert.KernelIdeal.S5000x128 φh)
    (U1 : FVec Ideal Cert.KernelIdeal.S128x128 φ₁) (U2 : FVec Ideal Cert.KernelIdeal.S128x128 φ₂) (xb : FVec Ideal Cert.KernelIdeal.S128 .f32)
    (A H : FVec Ideal Cert.ReferenceIdeal.S50000x128 .f32) (W1 W2 : FVec Ideal Cert.ReferenceIdeal.S128x128 .f32) (b : FVec Ideal Cert.ReferenceIdeal.S128 .f32)
    (y : Cert.KernelIdeal.S5000x128.Idx) (i : Cert.ReferenceIdeal.S50000x128.Idx)
    (hA : ∀ k : Fin 128, XA (ix2 (⟨(y 0).val, (y 0).isLt⟩ : Fin 5000) k) = A (ix2 (⟨(i 0).val, (i 0).isLt⟩ : Fin 50000) k))
    (hH : ∀ k : Fin 128, XH (ix2 (⟨(y 0).val, (y 0).isLt⟩ : Fin 5000) k) = H (ix2 (⟨(i 0).val, (i 0).isLt⟩ : Fin 50000) k))
    (h1 : ∀ k : Fin 128, U1 (ix2 k (⟨(y 1).val, (y 1).isLt⟩ : Fin 128)) = W1 (ix2 k (⟨(i 1).val, (i 1).isLt⟩ : Fin 128)))
    (h2 : ∀ k : Fin 128, U2 (ix2 k (⟨(y 1).val, (y 1).isLt⟩ : Fin 128)) = W2 (ix2 k (⟨(i 1).val, (i 1).isLt⟩ : Fin 128)))
    (hb : xb (ix1 (⟨(y 1).val, (y 1).isLt⟩ : Fin 128)) = b (ix1 (⟨(i 1).val, (i 1).isLt⟩ : Fin 128))) :
    addf (addf (matmul Cert.KernelIdeal.dot_S5000x128_S128x128_S5000x128_1_0_0_1_n_n none XA U1 (constant Cert.KernelIdeal.S5000x128 .f32 0x00000000#32))
               (matmul Cert.KernelIdeal.dot_S5000x128_S128x128_S5000x128_1_0_0_1_n_n none XH U2 (constant Cert.KernelIdeal.S5000x128 .f32 0x00000000#32)))
         (broadcastTo Cert.KernelIdeal.S5000x128 (shapeCast Cert.KernelIdeal.S1x128 xb Cert.KernelIdeal.Facts₀.shapeCasts_S128_S1x128) Cert.KernelIdeal.Facts₀.broadcasts_S1x128_S5000x128) y
      = Cert.ReferenceIdeal.Spec.pre A H W1 W2 b i := by
  have e1 := block_dot XA U1 A W1 y i hA h1
  have e2 := block_dot XH U2 H W2 y i hH h2
  have e3 := rowCast_apply xb Cert.KernelIdeal.Facts₀.shapeCasts_S128_S1x128 Cert.KernelIdeal.Facts₀.broadcasts_S1x128_S5000x128 y
  have e4 := rowBroadcast_apply b Cert.ReferenceIdeal.Facts₀.bcast_S128_S1x128_1 Cert.ReferenceIdeal.Facts₀.bcast_S1x128_S50000x128_0_1 i
  unfold Cert.ReferenceIdeal.Spec.pre
  rw [addf_apply, addf_apply, addf_apply, addf_apply, e1, e2, e3, e4, hb]

end Cert.LayerPoint

end
-- ==== Proof.Region0.lean ====
/-
  What the first tiled call leaves in its result array: one layer of the whole arrays it is entered with.

  The call runs its body on 10 blocks of 5000 rows.  Block t of the two row-tiled operands is rows 5000·t … 5000·t + 4999
  of their arrays, the weights and the bias come whole to every block, and block t of the result is written back to
  the same rows.  An entry of what block t computes is the entry of  leaky(A · W₁ + H · W₂ + b)  on the matching row
  (the layer read at one entry), and the ten blocks cover the 50000 rows, so the array ends as that layer.
-/
import proofs.«129009_j32332513804719_2_alg».proof.Proof.Gen.KernelIdeal.Frame
import proofs.«129009_j32332513804719_2_alg».proof.Proof.LayerPoint
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-! ## The body's stored value at one entry -/

/-- The stored value at `y` is the layer of the whole arrays at `i`, when the block's row `y 0` of each row-tiled operand
    is the array's row `i 0`, and the weights' column and the bias at `y 1` are the arrays' at `i 1`. -/
theorem pay_apply (x0 : Vec Ideal S5000x128 .f32) (x1 : Vec Ideal S5000x128 .f32) (x2 x3 : Vec Ideal S128x128 .f32) (x4 : Vec Ideal S128 .f32)
    (A H : FVec Ideal Cert.ReferenceIdeal.S50000x128 .f32) (W1 W2 : FVec Ideal Cert.ReferenceIdeal.S128x128 .f32) (b : FVec Ideal Cert.ReferenceIdeal.S128 .f32)
    (y : S5000x128.Idx) (i : Cert.ReferenceIdeal.S50000x128.Idx)
    (hA : ∀ k : Fin 128, x0 (ix2 (⟨(y 0).val, (y 0).isLt⟩ : Fin 5000) k) = A (ix2 (⟨(i 0).val, (i 0).isLt⟩ : Fin 50000) k))
    (hH : ∀ k : Fin 128, x1 (ix2 (⟨(y 0).val, (y 0).isLt⟩ : Fin 5000) k) = H (ix2 (⟨(i 0).val, (i 0).isLt⟩ : Fin 50000) k))
    (h1 : ∀ k : Fin 128, x2 (ix2 k (⟨(y 1).val, (y 1).isLt⟩ : Fin 128)) = W1 (ix2 k (⟨(i 1).val, (i 1).isLt⟩ : Fin 128)))
    (h2 : ∀ k : Fin 128, x3 (ix2 k (⟨(y 1).val, (y 1).isLt⟩ : Fin 128)) = W2 (ix2 k (⟨(i 1).val, (i 1).isLt⟩ : Fin 128)))
    (hb : x4 (ix1 (⟨(y 1).val, (y 1).isLt⟩ : Fin 128)) = b (ix1 (⟨(i 1).val, (i 1).isLt⟩ : Fin 128))) :
    k0_pay1 x0 x1 x2 x3 x4 y = Cert.ReferenceIdeal.Spec.leaky (Cert.ReferenceIdeal.Spec.pre A H W1 W2 b) i := by
  have hs0 : shapeCast S5000x128 x0 Facts₀.shapeCasts_S5000x128_S5000x128 = x0 := shapeCast_self x0 _
  have hp := Cert.LayerPoint.pre_apply
    (truncf .bf16 (shapeCast S5000x128 x0 Facts₀.shapeCasts_S5000x128_S5000x128) Facts₀.bitsLt_bf16_f32)
    (truncf .bf16 x1 Facts₀.bitsLt_bf16_f32) (truncf .bf16 x2 Facts₀.bitsLt_bf16_f32) (truncf .bf16 x3 Facts₀.bitsLt_bf16_f32) x4
    A H W1 W2 b y i (fun k => by rw [hs0]; exact hA k) hH h1 h2 hb
  rw [Cert.LayerPoint.leaky_apply]
  refine Eq.trans ?_ (congrArg Cert.LayerPoint.leakyAt hp)
  exact Cert.LayerPoint.blockLeaky_apply _ y

/-! ## From the blocks to the array -/

section Array

variable (V : (c : Dev nD) → (b : Ref sig .tc) → Buf (Elt Ideal) ((c : Thread nD τ).loc b))

/-- The layer of the arrays the call is entered with. -/
abbrev G (c : Dev nD) : Cert.ReferenceIdeal.S50000x128.Idx → Ideal .f32 :=
  Cert.ReferenceIdeal.Spec.leaky (Cert.ReferenceIdeal.Spec.pre (V c main_v38) (V c main_arg0) (V c main_arg2) (V c main_arg3) (V c main_arg4))

/-- The printed index maps over the grid: the row-tiled windows sit at block row `t`, block column 0; the weights and the
    bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of the layer of the arrays as the call finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts t
  funext y
  have hy0 : (y 0).val < 5000 := (y 0).isLt
  have hy1 : (y 1).val < 128 := (y 1).isLt
  show k0_pay1 (iblk0 V c 0 t) (iblk0 V c 1 t) (iblk0 V c 2 t) (iblk0 V c 3 t) (iblk0 V c 4 t) y
    = G V c (((cfg0.win 5).blk t).view.emb y)
  refine pay_apply (iblk0 V c 0 t) (iblk0 V c 1 t) (iblk0 V c 2 t) (iblk0 V c 3 t) (iblk0 V c 4 t)
    (V c main_v38) (V c main_arg0) (V c main_arg2) (V c main_arg3) (V c main_arg4) y
    (((cfg0.win 5).blk t).view.emb y) ?_ ?_ ?_ ?_ ?_
  · intro k
    show V c main_v38 (((cfg0.win 0).blk t).view.emb (ix2 (⟨(y 0).val, (y 0).isLt⟩ : Fin 5000) k)) = V c main_v38 _
    refine congrArg _ (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * k.val = k.val; omega
  · intro k
    show V c main_arg0 (((cfg0.win 1).blk t).view.emb (ix2 (⟨(y 0).val, (y 0).isLt⟩ : Fin 5000) k)) = V c main_arg0 _
    refine congrArg _ (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * k.val = k.val; omega
  · intro k
    show V c main_arg2 (((cfg0.win 2).blk t).view.emb (ix2 k (⟨(y 1).val, (y 1).isLt⟩ : Fin 128))) = V c main_arg2 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_5.index t (1 : Fin 2) * 128 + 1 * (y 1).val; omega
  · intro k
    show V c main_arg3 (((cfg0.win 3).blk t).view.emb (ix2 k (⟨(y 1).val, (y 1).isLt⟩ : Fin 128))) = V c main_arg3 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (y 1).val = win0_5.index t (1 : Fin 2) * 128 + 1 * (y 1).val; omega
  · show V c main_arg4 (((cfg0.win 4).blk t).view.emb (ix1 (⟨(y 1).val, (y 1).isLt⟩ : Fin 128))) = V c main_arg4 _
    refine congrArg _ (funext fun a => Fin.ext ?_)
    match a with
    | ⟨0, _⟩ => show win0_4.index t (0 : Fin 1) * 128 + 1 * (y 1).val = win0_5.index t (1 : Fin 2) * 128 + 1 * (y 1).val; omega

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v39).slice (win0_5.rect t)).set ↔ _
  rw [View.set_slice_whole, Rect.mem_set_unit]
  exact Iff.rfl

/-- Every row is in some block: row `r` in block `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, e50, e51⟩ := idx_facts t
  have et : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the call: the layer of the arrays the call was entered with. -/
theorem final (c : Dev nD) : (dat0 V c).arrAt 5 cfg0.N = G V c :=
  (dat0 V c).arrAt_eq_of_cover 5 (G V c) (fun t _ => flushed_eq V c t) cover

end Array

end Cert.KernelIdeal.Region0

end
-- ==== Proof.Region1.lean ====
/-
  What the second tiled call leaves in its result array: one layer of the whole arrays it is entered with.

  The call runs its body on 10 blocks of 5000 rows.  Block t of the two row-tiled operands is rows 5000·t … 5000·t + 4999
  of their arrays, the weights and the bias come whole to every block, and block t of the result is written back to
  the same rows.  An entry of what block t computes is the entry of  leaky(A · W₁ + H · W₂ + b)  on the matching row
  (the layer read at one entry), and the ten blocks cover the 50000 rows, so the array ends as that layer.
-/
import proofs.«129009_j32332513804719_2_alg».proof.Proof.Gen.KernelIdeal.Frame
import proofs.«129009_j32332513804719_2_alg».proof.Proof.LayerPoint
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-! ## The body's stored value at one entry -/

/-- The stored value at `y` is the layer of the whole arrays at `i`, when the block's row `y 0` of each row-tiled operand
    is the array's row `i 0`, and the weights' column and the bias at `y 1` are the arrays' at `i 1`. -/
theorem pay_apply (x0 : Vec Ideal S5000x128 .f32) (x1 : Vec Ideal S5000x128 .bf16) (x2 x3 : Vec Ideal S128x128 .f32) (x4 : Vec Ideal S128 .f32)
    (A H : FVec Ideal Cert.ReferenceIdeal.S50000x128 .f32) (W1 W2 : FVec Ideal Cert.ReferenceIdeal.S128x128 .f32) (b : FVec Ideal Cert.ReferenceIdeal.S128 .f32)
    (y : S5000x128.Idx) (i : Cert.ReferenceIdeal.S50000x128.Idx)
    (hA : ∀ k : Fin 128, x0 (ix2 (⟨(y 0).val, (y 0).isLt⟩ : Fin 5000) k) = A (ix2 (⟨(i 0).val, (i 0).isLt⟩ : Fin 50000) k))
    (hH : ∀ k : Fin 128, x1 (ix2 (⟨(y 0).val, (y 0).isLt⟩ : Fin 5000) k) = H (ix2 (⟨(i 0).val, (i 0).isLt⟩ : Fin 50000) k))
    (h1 : ∀ k : Fin 128, x2 (ix2 k (⟨(y 1).val, (y 1).isLt⟩ : Fin 128)) = W1 (ix2 k (⟨(i 1).val, (i 1).isLt⟩ : Fin 128)))
    (h2 : ∀ k : Fin 128, x3 (ix2 k (⟨(y 1).val, (y 1).isLt⟩ : Fin 128)) = W2 (ix2 k (⟨(i 1).val, (i 1).isLt⟩ : Fin 128)))
    (hb : x4 (ix1 (⟨(y 1).val, (y 1).isLt⟩ : Fin 128)) = b (ix1 (⟨(i 1).val, (i 1).isLt⟩ : Fin 128))) :
    k1_pay1 x0 x1 x2 x3 x4 y = Cert.ReferenceIdeal.Spec.leaky (Cert.ReferenceIdeal.Spec.pre A H W1 W2 b) i := by
  have hs0 : shapeCast S5000x128 x0 Facts₀.shapeCasts_S5000x128_S5000x128 = x0 := shapeCast_self x0 _
  have hs1 : shapeCast S5000x128 x1 Facts₀.shapeCasts_S5000x128_S5000x128 = x1 := shapeCast_self x1 _
  have hp := Cert.LayerPoint.pre_apply
    (truncf .bf16 (shapeCast S5000x128 x0 Facts₀.shapeCasts_S5000x128_S5000x128) Facts₀.bitsLt_bf16_f32)
    (shapeCast S5000x128 x1 Facts₀.shapeCasts_S5000x128_S5000x128) (truncf .bf16 x2 Facts₀.bitsLt_bf16_f32) (truncf .bf16 x3 Facts₀.bitsLt_bf16_f32) x4
    A H W1 W2 b y i (fun k => by rw [hs0]; exact hA k) (fun k => by rw [hs1]; exact hH k) h1 h2 hb
  rw [Cert.LayerPoint.leaky_apply]
  refine Eq.trans ?_ (congrArg Cert.LayerPoint.leakyAt hp)
  exact Cert.LayerPoint.blockLeaky_apply _ y

/-! ## From the blocks to the array -/

section Array

variable (V : (c : Dev nD) → (b : Ref sig .tc) → Buf (Elt Ideal) ((c : Thread nD τ).loc b))

/-- The layer of the arrays the call is entered with. -/
abbrev G (c : Dev nD) : Cert.ReferenceIdeal.S50000x128.Idx → Ideal .f32 :=
  Cert.ReferenceIdeal.Spec.leaky (Cert.ReferenceIdeal.Spec.pre (V c main_v62) (V c main_v39) (V c main_arg5) (V c main_arg6) (V c main_arg7))

/-- The printed index maps over the grid: the row-tiled windows sit at block row `t`, block column 0; the weights and the
    bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT `t` WRITES BACK is block `t` of the layer of the arrays as the call finds them. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts t
  funext y
  have hy0 : (y 0).val < 5000 := (y 0).isLt
  have hy1 : (y 1).val < 128 := (y 1).isLt
  show k1_pay1 (iblk1 V c 0 t) (iblk1 V c 1 t) (iblk1 V c 2 t) (iblk1 V c 3 t) (iblk1 V c 4 t) y
    = G V c (((cfg1.win 5).blk t).view.emb y)
  refine pay_apply (iblk1 V c 0 t) (iblk1 V c 1 t) (iblk1 V c 2 t) (iblk1 V c 3 t) (iblk1 V c 4 t)
    (V c main_v62) (V c main_v39) (V c main_arg5) (V c main_arg6) (V c main_arg7) y
    (((cfg1.win 5).blk t).view.emb y) ?_ ?_ ?_ ?_ ?_
  · intro k
    show V c main_v62 (((cfg1.win 0).blk t).view.emb (ix2 (⟨(y 0).val, (y 0).isLt⟩ : Fin 5000) k)) = V c main_v62 _
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * k.val = k.val; omega
  · intro k
    show V c main_v39 (((cfg1.win 1).blk t).view.emb (ix2 (⟨(y 0).val, (y 0).isLt⟩ : Fin 5000) k)) = V c main_v39 _
    refine congrArg _ (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * k.val = k.val; omega
  · intro k
    show V c main_arg5 (((cfg1.win 2).blk t).view.emb (ix2 k (⟨(y 1).val, (y 1).isLt⟩ : Fin 128))) = V c main_arg5 _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (y 1).val = win1_5.index t (1 : Fin 2) * 128 + 1 * (y 1).val; omega
  · intro k
    show V c main_arg6 (((cfg1.win 3).blk t).view.emb (ix2 k (⟨(y 1).val, (y 1).isLt⟩ : Fin 128))) = V c main_arg6 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (y 1).val = win1_5.index t (1 : Fin 2) * 128 + 1 * (y 1).val; omega
  · show V c main_arg7 (((cfg1.win 4).blk t).view.emb (ix1 (⟨(y 1).val, (y 1).isLt⟩ : Fin 128))) = V c main_arg7 _
    refine congrArg _ (funext fun a => Fin.ext ?_)
    match a with
    | ⟨0, _⟩ => show win1_4.index t (0 : Fin 1) * 128 + 1 * (y 1).val = win1_5.index t (1 : Fin 2) * 128 + 1 * (y 1).val; omega

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v63).slice (win1_5.rect t)).set ↔ _
  rw [View.set_slice_whole, Rect.mem_set_unit]
  exact Iff.rfl

/-- Every row is in some block: row `r` in block `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, e50, e51⟩ := idx_facts t
  have et : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the call: the layer of the arrays the call was entered with. -/
theorem final (c : Dev nD) : (dat1 V c).arrAt 5 cfg1.N = G V c :=
  (dat1 V c).arrAt_eq_of_cover 5 (G V c) (fun t _ => flushed_eq V c t) cover

end Array

end Cert.KernelIdeal.Region1

end
-- ==== Proof.Region2.lean ====
/-
  What the third tiled call leaves in its result array: the third layer of the whole arrays it is entered with,
  followed by the read-out.

  As in the first two calls the body runs on 10 blocks of 5000 rows; here the block's layer stays in the block and is
  multiplied at once by the read-out weights:  tanh(leaky(A · W₁ + H · W₂ + b) · W_d + b_d).  Entry (r, c) of the result
  needs row r of the layer, that is row r of A and of H and the whole of W₁, W₂ and b, and column c of W_d and b_d at c.
-/
import proofs.«129009_j32332513804719_2_alg».proof.Proof.Gen.KernelIdeal.Frame
import proofs.«129009_j32332513804719_2_alg».proof.Proof.LayerPoint
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-! ## The body's stored value at one entry -/

/-- The block's pre-activation  a · W₁ + h · W₂ + b. -/
abbrev preBlk (x0 : Vec Ideal S5000x128 .f32) (x1 : Vec Ideal S5000x128 .bf16) (x2 x3 : Vec Ideal S128x128 .f32) (x4 : Vec Ideal S128 .f32) :
    FVec Ideal S5000x128 .f32 :=
  addf (addf (matmul dot_S5000x128_S128x128_S5000x128_1_0_0_1_n_n none (truncf .bf16 (shapeCast S5000x128 x0 Facts₀.shapeCasts_S5000x128_S5000x128) Facts₀.bitsLt_bf16_f32)
                (truncf .bf16 x2 Facts₀.bitsLt_bf16_f32) (constant S5000x128 .f32 0x00000000#32))
             (matmul dot_S5000x128_S128x128_S5000x128_1_0_0_1_n_n none (shapeCast S5000x128 x1 Facts₀.shapeCasts_S5000x128_S5000x128 : FVec Ideal S5000x128 .bf16)
                (truncf .bf16 x3 Facts₀.bitsLt_bf16_f32) (constant S5000x128 .f32 0x00000000#32)))
       (broadcastTo S5000x128 (shapeCast S1x128 x4 Facts₀.shapeCasts_S128_S1x128) Facts₀.broadcasts_S1x128_S5000x128)

/-- The block's layer, narrowed to 16-bit floats. -/
abbrev actBlk (x0 : Vec Ideal S5000x128 .f32) (x1 : Vec Ideal S5000x128 .bf16) (x2 x3 : Vec Ideal S128x128 .f32) (x4 : Vec Ideal S128 .f32) :
    FVec Ideal S5000x128 .bf16 :=
  truncf .bf16 (select (cmpf .oge (preBlk x0 x1 x2 x3 x4) (broadcast S5000x128 (Scalar.ofBits .f32 0x00000000#32))) (preBlk x0 x1 x2 x3 x4)
      (mulf (broadcast S5000x128 (Scalar.ofBits .f32 0x3E4CCCCD#32)) (preBlk x0 x1 x2 x3 x4))) Facts₀.bitsLt_bf16_f32

/-- The stored value is the read-out of the block's layer. -/
theorem pay_eq (x0 : Vec Ideal S5000x128 .f32) (x1 : Vec Ideal S5000x128 .bf16) (x2 x3 : Vec Ideal S128x128 .f32) (x4 : Vec Ideal S128 .f32)
    (x5 : Vec Ideal S128x16 .f32) (x6 : Vec Ideal S16 .f32) :
    k2_pay1 x0 x1 x2 x3 x4 x5 x6
      = tanh (addf (matmul dot_S5000x128_S128x16_S5000x16_1_0_0_1_n_n none (actBlk x0 x1 x2 x3 x4) (truncf .bf16 x5 Facts₀.bitsLt_bf16_f32) (constant S5000x16 .f32 0x00000000#32))
          (broadcastTo S5000x16 (shapeCast S1x16 x6 Facts₀.shapeCasts_S16_S1x16) Facts₀.broadcasts_S1x16_S5000x16)) := rfl

/-- One row of the block's layer is the matching row of the whole arrays' layer. -/
theorem act_row (x0 : Vec Ideal S5000x128 .f32) (x1 : Vec Ideal S5000x128 .bf16) (x2 x3 : Vec Ideal S128x128 .f32) (x4 : Vec Ideal S128 .f32)
    (A H : FVec Ideal Cert.ReferenceIdeal.S50000x128 .f32) (W1 W2 : FVec Ideal Cert.ReferenceIdeal.S128x128 .f32) (b : FVec Ideal Cert.ReferenceIdeal.S128 .f32)
    (y0 : Fin 5000) (i0 : Fin 50000)
    (hA : ∀ k : Fin 128, x0 (ix2 y0 k) = A (ix2 i0 k))
    (hH : ∀ k : Fin 128, x1 (ix2 y0 k) = H (ix2 i0 k))
    (hW1 : ∀ k c : Fin 128, x2 (ix2 k c) = W1 (ix2 k c))
    (hW2 : ∀ k c : Fin 128, x3 (ix2 k c) = W2 (ix2 k c))
    (hb : ∀ c : Fin 128, x4 (ix1 c) = b (ix1 c)) (c : Fin 128) :
    actBlk x0 x1 x2 x3 x4 (ix2 y0 c) = Cert.ReferenceIdeal.Spec.leaky (Cert.ReferenceIdeal.Spec.pre A H W1 W2 b) (ix2 i0 c) := by
  have hs0 : shapeCast S5000x128 x0 Facts₀.shapeCasts_S5000x128_S5000x128 = x0 := shapeCast_self x0 _
  have hs1 : shapeCast S5000x128 x1 Facts₀.shapeCasts_S5000x128_S5000x128 = x1 := shapeCast_self x1 _
  have hp := Cert.LayerPoint.pre_apply
    (truncf .bf16 (shapeCast S5000x128 x0 Facts₀.shapeCasts_S5000x128_S5000x128) Facts₀.bitsLt_bf16_f32)
    (shapeCast S5000x128 x1 Facts₀.shapeCasts_S5000x128_S5000x128 : FVec Ideal S5000x128 .bf16) (truncf .bf16 x2 Facts₀.bitsLt_bf16_f32) (truncf .bf16 x3 Facts₀.bitsLt_bf16_f32) x4
    A H W1 W2 b (ix2 y0 c) (ix2 i0 c) (fun k => by rw [hs0]; exact hA k) (fun k => by rw [hs1]; exact hH k)
    (fun k => hW1 k c) (fun k => hW2 k c) (hb c)
  rw [Cert.LayerPoint.leaky_apply]
  refine Eq.trans ?_ (congrArg Cert.LayerPoint.leakyAt hp)
  exact Cert.LayerPoint.blockLeaky_apply _ (ix2 y0 c)

/-- The stored value at `y` is the result of the whole arrays at `i`, when the block's row `y 0` of each row-tiled operand is
    the array's row `i 0`, the layer's weights and bias are the arrays', and the read-out's column and bias at `y 1` are the
    arrays' at `i 1`. -/
theorem pay_apply (x0 : Vec Ideal S5000x128 .f32) (x1 : Vec Ideal S5000x128 .bf16) (x2 x3 : Vec Ideal S128x128 .f32) (x4 : Vec Ideal S128 .f32)
    (x5 : Vec Ideal S128x16 .f32) (x6 : Vec Ideal S16 .f32)
    (A H : FVec Ideal Cert.ReferenceIdeal.S50000x128 .f32) (W1 W2 : FVec Ideal Cert.ReferenceIdeal.S128x128 .f32) (b : FVec Ideal Cert.ReferenceIdeal.S128 .f32)
    (WD : FVec Ideal Cert.ReferenceIdeal.S128x16 .f32) (BD : FVec Ideal Cert.ReferenceIdeal.S16 .f32)
    (y : S5000x16.Idx) (i : Cert.ReferenceIdeal.S50000x16.Idx)
    (hA : ∀ k : Fin 128, x0 (ix2 (⟨(y 0).val, (y 0).isLt⟩ : Fin 5000) k) = A (ix2 (⟨(i 0).val, (i 0).isLt⟩ : Fin 50000) k))
    (hH : ∀ k : Fin 128, x1 (ix2 (⟨(y 0).val, (y 0).isLt⟩ : Fin 5000) k) = H (ix2 (⟨(i 0).val, (i 0).isLt⟩ : Fin 50000) k))
    (hW1 : ∀ k c : Fin 128, x2 (ix2 k c) = W1 (ix2 k c))
    (hW2 : ∀ k c : Fin 128, x3 (ix2 k c) = W2 (ix2 k c))
    (hb : ∀ c : Fin 128, x4 (ix1 c) = b (ix1 c))
    (h5 : ∀ k : Fin 128, x5 (ix2 k (⟨(y 1).val, (y 1).isLt⟩ : Fin 16)) = WD (ix2 k (⟨(i 1).val, (i 1).isLt⟩ : Fin 16)))
    (h6 : x6 (ix1 (⟨(y 1).val, (y 1).isLt⟩ : Fin 16)) = BD (ix1 (⟨(i 1).val, (i 1).isLt⟩ : Fin 16))) :
    k2_pay1 x0 x1 x2 x3 x4 x5 x6 y
      = Cert.ReferenceIdeal.Spec.dense (Cert.ReferenceIdeal.Spec.leaky (Cert.ReferenceIdeal.Spec.pre A H W1 W2 b)) WD BD i := by
  have e1 := Cert.LayerPoint.block_dot16 (actBlk x0 x1 x2 x3 x4) (truncf .bf16 x5 Facts₀.bitsLt_bf16_f32)
    (Cert.ReferenceIdeal.Spec.leaky (Cert.ReferenceIdeal.Spec.pre A H W1 W2 b)) WD y i
    (fun k => act_row x0 x1 x2 x3 x4 A H W1 W2 b _ _ hA hH hW1 hW2 hb k) h5
  have e3 := Cert.LayerPoint.rowCast_apply x6 Facts₀.shapeCasts_S16_S1x16 Facts₀.broadcasts_S1x16_S5000x16 y
  have e4 := Cert.LayerPoint.rowBroadcast_apply BD Cert.ReferenceIdeal.Facts₀.bcast_S16_S1x16_1 Cert.ReferenceIdeal.Facts₀.bcast_S1x16_S50000x16_0_1 i
  rw [pay_eq]
  unfold Cert.ReferenceIdeal.Spec.dense
  show Ideal.tanh (_ + _) = Ideal.tanh (_ + _)
  rw [e1, e3, e4, h6]

/-! ## From the blocks to the array -/

section Array

variable (V : (c : Dev nD) → (b : Ref sig .tc) → Buf (Elt Ideal) ((c : Thread nD τ).loc b))

/-- The third layer and the read-out of the arrays the call is entered with. -/
abbrev G (c : Dev nD) : Cert.ReferenceIdeal.S50000x16.Idx → Ideal .f32 :=
  Cert.ReferenceIdeal.Spec.dense
    (Cert.ReferenceIdeal.Spec.leaky (Cert.ReferenceIdeal.Spec.pre (V c main_v86) (V c main_v63) (V c main_arg8) (V c main_arg9) (V c main_arg10)))
    (V c main_arg11) (V c main_arg12)

/-- The printed index maps over the grid: the row-tiled windows sit at block row `t`, block column 0; every other operand
    at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- WHAT POINT `t` WRITES BACK is block `t` of the result of the arrays as the call finds them. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128) hz1,
    View.ld_unit_zero (S := S128x16) hz2, View.ld_unit_zero (S := S16) hz1]
  obtain ⟨e00, e01, e10, e11, e20, e21, e30, e31, e40, e50, e51, e60, e70, e71⟩ := idx_facts t
  funext y
  have hy0 : (y 0).val < 5000 := (y 0).isLt
  have hy1 : (y 1).val < 16 := (y 1).isLt
  show k2_pay1 (iblk2 V c 0 t) (iblk2 V c 1 t) (iblk2 V c 2 t) (iblk2 V c 3 t) (iblk2 V c 4 t) (iblk2 V c 5 t) (iblk2 V c 6 t) y
    = G V c (((cfg2.win 7).blk t).view.emb y)
  refine pay_apply (iblk2 V c 0 t) (iblk2 V c 1 t) (iblk2 V c 2 t) (iblk2 V c 3 t) (iblk2 V c 4 t) (iblk2 V c 5 t) (iblk2 V c 6 t)
    (V c main_v86) (V c main_v63) (V c main_arg8) (V c main_arg9) (V c main_arg10) (V c main_arg11) (V c main_arg12) y
    (((cfg2.win 7).blk t).view.emb y) ?_ ?_ ?_ ?_ ?_ ?_ ?_
  · intro k
    show V c main_v86 (((cfg2.win 0).blk t).view.emb (ix2 (⟨(y 0).val, (y 0).isLt⟩ : Fin 5000) k)) = V c main_v86 _
    refine congrArg _ (funext fun a => Fin.ext ?_)
    match a with
    | ⟨0, _⟩ => show win2_0.index t (0 : Fin 2) * 5000 + 1 * (y 0).val = win2_7.index t (0 : Fin 2) * 5000 + 1 * (y 0).val; omega
    | ⟨1, _⟩ => show win2_0.index t (1 : Fin 2) * 128 + 1 * k.val = k.val; omega
  · intro k
    show V c main_v63 (((cfg2.win 1).blk t).view.emb (ix2 (⟨(y 0).val, (y 0).isLt⟩ : Fin 5000) k)) = V c main_v63 _
    refine congrArg _ (funext fun a => Fin.ext ?_)
    match a with
    | ⟨0, _⟩ => show win2_1.index t (0 : Fin 2) * 5000 + 1 * (y 0).val = win2_7.index t (0 : Fin 2) * 5000 + 1 * (y 0).val; omega
    | ⟨1, _⟩ => show win2_1.index t (1 : Fin 2) * 128 + 1 * k.val = k.val; omega
  · intro k c'
    show V c main_arg8 (((cfg2.win 2).blk t).view.emb (ix2 k c')) = V c main_arg8 _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * c'.val = c'.val; omega
  · intro k c'
    show V c main_arg9 (((cfg2.win 3).blk t).view.emb (ix2 k c')) = V c main_arg9 _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * c'.val = c'.val; omega
  · intro c'
    show V c main_arg10 (((cfg2.win 4).blk t).view.emb (ix1 c')) = V c main_arg10 _
    refine congrArg _ (funext fun a => Fin.ext ?_)
    match a with
    | ⟨0, _⟩ => show win2_4.index t (0 : Fin 1) * 128 + 1 * c'.val = c'.val; omega
  · intro k
    show V c main_arg11 (((cfg2.win 5).blk t).view.emb (ix2 k (⟨(y 1).val, (y 1).isLt⟩ : Fin 16))) = V c main_arg11 _
    refine congrArg _ (funext fun a => Fin.ext ?_)
    match a with
    | ⟨0, _⟩ => show win2_5.index t (0 : Fin 2) * 128 + 1 * k.val = k.val; omega
    | ⟨1, _⟩ => show win2_5.index t (1 : Fin 2) * 16 + 1 * (y 1).val = win2_7.index t (1 : Fin 2) * 16 + 1 * (y 1).val; omega
  · show V c main_arg12 (((cfg2.win 6).blk t).view.emb (ix1 (⟨(y 1).val, (y 1).isLt⟩ : Fin 16))) = V c main_arg12 _
    refine congrArg _ (funext fun a => Fin.ext ?_)
    match a with
    | ⟨0, _⟩ => show win2_6.index t (0 : Fin 1) * 16 + 1 * (y 1).val = win2_7.index t (1 : Fin 2) * 16 + 1 * (y 1).val; omega

/-- An index of the array is in point `t`'s block iff each coordinate is in the block's range on its axis. -/
theorem mem_blk (t : Fin cfg2.N) (i : S50000x16.Idx) :
    i ∈ ((cfg2.win 7).blk t).view.set ↔ ∀ a : Fin 2, win2_7.index t a * S5000x16.size a ≤ (i a).val ∧ (i a).val < win2_7.index t a * S5000x16.size a + S5000x16.size a := by
  show i ∈ ((View.whole main_v87).slice (win2_7.rect t)).set ↔ _
  rw [View.set_slice_whole, Rect.mem_set_unit]
  exact Iff.rfl

/-- Every row is in some block: row `r` in block `r / 5000`. -/
theorem cover (i : S50000x16.Idx) :
    ∃ t : Fin cfg2.N, (cfg2.win 7).flush t = true ∧ i ∈ ((cfg2.win 7).blk t).view.set := by
  have hi0 : (i 0).val < 50000 := (i 0).isLt
  have hi1 : (i 1).val < 16 := (i 1).isLt
  have hN : cfg2.N = 10 := N_2
  let t : Fin cfg2.N := ⟨(i 0).val / 5000, by rw [hN]; omega⟩
  obtain ⟨-, -, -, -, -, -, -, -, -, -, -, -, e70, e71⟩ := idx_facts t
  have et : t.val = (i 0).val / 5000 := rfl
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 16 ≤ (i 1).val ∧ (i 1).val < win2_7.index t (1 : Fin 2) * 16 + 16; omega

/-- THE ARRAY after the call: the result of the arrays the call was entered with. -/
theorem final (c : Dev nD) : (dat2 V c).arrAt 7 cfg2.N = G V c :=
  (dat2 V c).arrAt_eq_of_cover 7 (G V c) (fun t _ => flushed_eq V c t) cover

end Array

end Cert.KernelIdeal.Region2

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibScatterRows.lean ====
/-
  A scatter-add of whole rows, scaled row by row by a non-negative real.

  At the exact instance a scatter-add is, at every operand index `i`, the operand's element plus the sum of the
  update elements that land on `i`. Multiplication by a NON-NEGATIVE REAL `z` distributes over sums of extended
  reals (it does not for an infinite or a negative factor: `(2 + (-1)) * ⊤ = ⊤` but `2 * ⊤ + (-1) * ⊤ = ⊤ + ⊥ = ⊥`, and
  `(⊤ + ⊥) * (-1) = ⊤` but `⊤ * (-1) + ⊥ * (-1) = ⊥ + ⊤ = ⊥`), so scaling the result of a
  scatter-add at `i` by `z` is the scatter-add of the operand's element and of every update landing on `i`, each
  scaled by `z` first.

  For a scatter of whole rows — operand `[N, C]`, scatter indices `[R, 1]`, updates `[R, C]` — update element
  `(r, c)` lands on operand element `(idx[r, 0], c)`, the row number read as a signed integer and NOT clamped: a row
  number outside `[0, N)` drops the update. The same for a scatter of single elements into a flat array — operand `[N]`,
  scatter indices `[R, 1]`, updates `[R]` —: update element `r` lands on operand element `idx[r, 0]`.

  The node scale `rsqrt (max y 1)` is a non-negative real whatever `y` is, and an index that is already inside
  `[0, N)` is unchanged by the wrap-around normalization of negative indices and by the gather's clamp.
-/
import Idealize.ShloMosaic.PureOps.Ideal
import Idealize.ShloMosaic.Lib.ValueIdx
import Idealize.ShloMosaic.Lib.IdealHost

namespace Cert.LibScatterRows

open Idealize.ShloMosaic Idealize.ShloMosaic.ValueIdx

section Scale

/-- Multiplication on the right by a non-negative real distributes over a finite sum of extended reals. -/
theorem sum_mul_real {ι : Type} (t : Finset ι) (f : ι → EReal) (z : ℝ) (hz : 0 ≤ z) :
    (∑ j ∈ t, f j) * (z : EReal) = ∑ j ∈ t, f j * (z : EReal) := by
  classical
  induction t using Finset.induction_on with
  | empty => simp
  | insert a t ha ih =>
    rw [Finset.sum_insert ha, Finset.sum_insert ha,
      EReal.right_distrib_of_nonneg_of_ne_top (EReal.coe_nonneg.mpr hz) (EReal.coe_ne_top z), ih]

/-- SCALE AFTER = SCALE BEFORE: if at operand index `i` the operand `x'` is `x` scaled by the non-negative real
    `z`, and every update of `u'` landing on `i` is the one of `u` scaled by `z`, then the scatter-add of `x'` and
    `u'` at `i` is the scatter-add of `x` and `u` at `i`, scaled by `z`. -/
theorem scatterAdd_mul_real {s si su : Shape} (d : ScatterDims s si su) {w : Nat} (x x' : s.Idx → EReal)
    (idx : IVec si w) (u u' : su.Idx → EReal) (i : s.Idx) (z : ℝ) (hz : 0 ≤ z)
    (hx : x' i = x i * (z : EReal)) (hu : ∀ j, d.resultIdx? j idx = some i → u' j = u j * (z : EReal)) :
    Ideal.hostScatterAdd d x' idx u' i = Ideal.hostScatterAdd d x idx u i * (z : EReal) := by
  unfold Ideal.hostScatterAdd
  rw [EReal.right_distrib_of_nonneg_of_ne_top (EReal.coe_nonneg.mpr hz) (EReal.coe_ne_top z), sum_mul_real _ _ z hz, hx]
  congr 1
  exact Finset.sum_congr rfl fun j hj => hu j (Finset.mem_filter.mp hj).2

end Scale

section Rows

/-- The dimension numbers of a scatter of whole rows: operand `[N, C]`, scatter indices `[R, 1]`, updates `[R, C]`;
    the updates' axis 1 is the window axis (it runs along a row), the operand's axis 0 is inserted and is the one the
    scatter index names. Their conditions `wf` are decided on a program's literal shapes. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An operand axis takes a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

variable {N R C w : Nat} (wf : ScatterDims.WF ⟨2, ![N, C]⟩ ⟨2, ![R, 1]⟩ ⟨2, ![R, C]⟩ [1] [0] [0] 1)

/-- On the row axis the window of update `(r, c)` starts at `idx[r, 0]`, read as a signed integer. -/
theorem rows_start_row (idx : IVec ⟨2, ![R, 1]⟩ w) (j : (⟨2, ![R, C]⟩ : Shape).Idx) :
    (rowsScatterDims N R C wf).start j idx (0 : Fin 2) = (idx (ix2 (j 0) 0)).toInt := by
  unfold ScatterDims.start
  rw [dif_pos (show (0 : Fin 2) ∈ (rowsScatterDims N R C wf).scatterDimsToOperandDims from
    List.mem_singleton.mpr rfl)]
  have hsi : (rowsScatterDims N R C wf).siIdx j
      ⟨List.idxOf (0 : Fin 2) (rowsScatterDims N R C wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at `0`: the scatter index does not name that axis. -/
theorem rows_start_col (idx : IVec ⟨2, ![R, 1]⟩ w) (j : (⟨2, ![R, C]⟩ : Shape).Idx) :
    (rowsScatterDims N R C wf).start j idx (1 : Fin 2) = 0 := by
  have hne : ¬ ((1 : Fin 2) = 0) := by decide
  unfold ScatterDims.start
  rw [dif_neg (fun h => hne (List.mem_singleton.mp h))]

/-- The row axis is inserted: the window coordinate on it is `0`. -/
theorem rows_window_row (j : (⟨2, ![R, C]⟩ : Shape).Idx) :
    (rowsScatterDims N R C wf).window j (0 : Fin 2) = 0 := by
  unfold ScatterDims.window
  rw [dif_neg (fun h => (mem_sKept _ _).mp h (List.mem_singleton.mpr rfl))]

/-- The column axis is the window axis: the window coordinate on it is the update's own column. -/
theorem rows_window_col (j : (⟨2, ![R, C]⟩ : Shape).Idx) :
    (rowsScatterDims N R C wf).window j (1 : Fin 2) = (j 1).val := by
  have hne : ¬ ((1 : Fin 2) = 0) := by decide
  unfold ScatterDims.window
  rw [dif_pos ((mem_sKept _ _).mpr (fun h => hne (List.mem_singleton.mp h)))]
  rfl

/-- WHERE A ROW UPDATE LANDS: if update element `j = (r, c)` lands on operand element `i`, then the row number
    `idx[r, 0]`, read as a signed integer (not clamped), is `i`'s row, and `c` is `i`'s column. -/
theorem rows_resultIdx_some (idx : IVec ⟨2, ![R, 1]⟩ w) (j : (⟨2, ![R, C]⟩ : Shape).Idx)
    (i : (⟨2, ![N, C]⟩ : Shape).Idx) (h : (rowsScatterDims N R C wf).resultIdx? j idx = some i) :
    (idx (ix2 (j 0) 0)).toInt = ((i 0).val : Int) ∧ (j 1).val = (i 1).val := by
  unfold ScatterDims.resultIdx? at h
  split at h
  · rename_i hb
    have hi := Option.some.inj h
    have h0 : (i (0 : Fin 2)).val
        = ((rowsScatterDims N R C wf).start j idx (0 : Fin 2) + (rowsScatterDims N R C wf).window j (0 : Fin 2)).toNat := by
      rw [← hi]
    have h1 : (i (1 : Fin 2)).val
        = ((rowsScatterDims N R C wf).start j idx (1 : Fin 2) + (rowsScatterDims N R C wf).window j (1 : Fin 2)).toNat := by
      rw [← hi]
    have hb0 := (hb (0 : Fin 2)).1
    rw [rows_start_row, rows_window_row] at h0 hb0
    rw [rows_start_col, rows_window_col] at h1
    constructor
    · omega
    · omega
  · exact absurd h (by simp)

end Rows

section Flat

/-- The dimension numbers of a scatter of single elements into a flat array: operand `[N]`, scatter indices
    `[R, 1]`, updates `[R]`; no window axis, the operand's only axis is inserted and is the one the scatter index
    names. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- WHERE AN ELEMENT UPDATE LANDS: if update element `j = (r)` lands on operand element `i`, then `idx[r, 0]`, read
    as a signed integer (not clamped), is `i`'s position. -/
theorem flat_resultIdx_some {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx)
    (h : (flatScatterDims N R wf).resultIdx? j idx = some i) :
    (idx (ix2 (j 0) 0)).toInt = ((i 0).val : Int) := by
  have hstart : (flatScatterDims N R wf).start j idx (0 : Fin 1) = (idx (ix2 (j 0) 0)).toInt := by
    unfold ScatterDims.start
    rw [dif_pos (show (0 : Fin 1) ∈ (flatScatterDims N R wf).scatterDimsToOperandDims from
      List.mem_singleton.mpr rfl)]
    have hsi : (flatScatterDims N R wf).siIdx j
        ⟨List.idxOf (0 : Fin 1) (flatScatterDims N R wf).scatterDimsToOperandDims,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hwindow : (flatScatterDims N R wf).window j (0 : Fin 1) = 0 := by
    unfold ScatterDims.window
    rw [dif_neg (fun h => (mem_sKept _ _).mp h (List.mem_singleton.mpr rfl))]
  unfold ScatterDims.resultIdx? at h
  split at h
  · rename_i hb
    have hi := Option.some.inj h
    have h0 : (i (0 : Fin 1)).val
        = ((flatScatterDims N R wf).start j idx (0 : Fin 1) + (flatScatterDims N R wf).window j (0 : Fin 1)).toNat := by
      rw [← hi]
    have hb0 := (hb (0 : Fin 1)).1
    rw [hstart, hwindow] at h0 hb0
    omega
  · exact absurd h (by simp)

end Flat

section NodeScale

/-- The reciprocal square root of a positive extended real is a non-negative real: `0` at `⊤`, `(√r)⁻¹` at a
    positive real `r`. -/
theorem rsqrt_of_pos (m : EReal) (hm : 0 < m) : ∃ z : ℝ, 0 ≤ z ∧ Ideal.rsqrt m = (z : EReal) := by
  induction m using EReal.rec with
  | bot => exact absurd hm (by simp)
  | top => exact ⟨0, le_refl 0, by simp⟩
  | coe r =>
    have hr : 0 < r := EReal.coe_pos.mp hm
    refine ⟨(Real.sqrt r)⁻¹, inv_nonneg.mpr (Real.sqrt_nonneg r), ?_⟩
    rw [Ideal.rsqrt_coe, if_neg (not_lt.mpr hr.le), if_neg hr.ne']

/-- THE NODE SCALE IS A NON-NEGATIVE REAL whatever the degree `y` is (finite, infinite or junk): `max y 1` is at
    least `1`, so its reciprocal square root is `0` (at `⊤`) or the inverse of a real square root. -/
theorem rsqrt_max_one (y : EReal) : ∃ z : ℝ, 0 ≤ z ∧ Ideal.rsqrt (max y 1) = (z : EReal) :=
  rsqrt_of_pos (max y 1) (lt_of_lt_of_le zero_lt_one (le_max_right y 1))

/-- The f32 word `0x3F800000` is the extended real one. -/
theorem ofBits_one : Ideal.ofBits .f32 0x3F800000#32 = (1 : EReal) := Ideal.ofBits_one_f32

end NodeScale

section InRange

/-- A select on "`v` is negative" (signed comparison with the zero word) takes its second operand when `v`, read
    as a signed integer, is not negative. -/
theorem select_slt_zero_of_nonneg {α : Type} (v : BitVec 32) (a b : α) (hv : 0 ≤ v.toInt) :
    Scalar.select (IntOp.cmpi .slt v 0#32) a b = b := by
  have h : v.slt 0#32 = false := by
    simp only [BitVec.slt, BitVec.toInt_zero, decide_eq_false_iff_not, not_lt]
    exact hv
  show Scalar.select (BitVec.ofBool (v.slt 0#32)) a b = b
  rw [h]
  exact select_zero a b

/-- AN IN-RANGE INDEX IS ITS OWN NORMALIZATION: the wrap-around of negative indices, `v < 0 ? v + 50000 : v`, leaves a
    word `v` that reads as the signed integer `r ≥ 0` unchanged. -/
theorem normalize_of_inRange (v : BitVec 32) (r : Nat) (hv : v.toInt = (r : Int)) :
    Scalar.select (IntOp.cmpi .slt v 0#32) (IntOp.addi v 50000#32) v = v :=
  select_slt_zero_of_nonneg v _ _ (by omega)

/-- AN IN-RANGE INDEX IS ITS OWN CLAMP: a word that reads as the signed integer `r < N` names row `r` after the
    gather's clamp into `[0, N − 1]`. -/
theorem clamp_of_inRange (N : Nat) (v : BitVec 32) (r : Nat) (hr : r < N) (hv : v.toInt = (r : Int)) :
    min v.toInt.toNat (N - 1) = r := by
  omega

/-- The same at `N = 50000`. -/
theorem clamp_of_inRange_50000 (v : BitVec 32) (r : Nat) (hr : r < 50000) (hv : v.toInt = (r : Int)) :
    min v.toInt.toNat (50000 - 1) = r :=
  clamp_of_inRange 50000 v r hr hv

end InRange

end Cert.LibScatterRows
-- ==== Proof.LibTwoScales.lean ====
/-
  One aggregation, weighted per edge or scaled per node: the same sums.

  Per edge, the weight is  rsqrt(dout(src) · din(dst)),  the two clamped degrees at least 1.  For extended reals
  a, b > 0 the reciprocal square root is multiplicative,  rsqrt(a · b) = rsqrt a · rsqrt b  (at an infinite degree
  both sides are 0), and each factor is a non-negative real.  In the sum over the edges into node i every edge has
  destination i, so the destination-side factor is the one non-negative real  rsqrt(din(i)),  which distributes
  over the sum of extended reals:

      ∑_{e : dst e = i}  h[src e, ·] · rsqrt(dout(src e) · din(dst e))
        =  (∑_{e : dst e = i}  h[src e, ·] · rsqrt(dout(src e))) · rsqrt(din(i)).

  The left side is the aggregation with a weight per edge; the right side scales the rows once per node before the
  gather and once per node after the sum.  An edge whose destination number is outside 0 … 49999 lands nowhere on
  either side; for one that lands on i the wrap-around of negative numbers and the gather's clamp leave its
  destination number alone, so the in-degree read for the weight is din(i).
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«129009_j32332513804719_2_alg».proof.Proof.LibRows
import proofs.«129009_j32332513804719_2_alg».proof.Proof.LibScatterRows

noncomputable section

namespace Cert.AggBridge

open Idealize.ShloMosaic Idealize.ShloMosaic.ValueIdx Cert.LibRows Cert.LibScatterRows

/-! ## The reciprocal square root of a product -/

/-- For positive extended reals the reciprocal square root is multiplicative; at `⊤` both sides are `0`. -/
theorem rsqrt_mul (a b : EReal) (ha : 0 < a) (hb : 0 < b) :
    Ideal.rsqrt (a * b) = Ideal.rsqrt a * Ideal.rsqrt b := by
  induction a using EReal.rec with
  | bot => exact absurd ha (by simp)
  | top => rw [EReal.top_mul_of_pos hb, Ideal.rsqrt_top, zero_mul]
  | coe r =>
    induction b using EReal.rec with
    | bot => exact absurd hb (by simp)
    | top => rw [EReal.mul_top_of_pos ha, Ideal.rsqrt_top, mul_zero]
    | coe s =>
      have hr : 0 < r := EReal.coe_pos.mp ha
      have hs : 0 < s := EReal.coe_pos.mp hb
      have hrs : 0 < r * s := mul_pos hr hs
      rw [← EReal.coe_mul, Ideal.rsqrt_coe, Ideal.rsqrt_coe, Ideal.rsqrt_coe,
        if_neg (not_lt.mpr hrs.le), if_neg hrs.ne', if_neg (not_lt.mpr hr.le), if_neg hr.ne',
        if_neg (not_lt.mpr hs.le), if_neg hs.ne', ← EReal.coe_mul, Real.sqrt_mul hr.le, mul_inv]

/-- A clamped degree is positive. -/
theorem max_one_pos (y : EReal) : 0 < max y 1 := lt_of_lt_of_le zero_lt_one (le_max_right y 1)

/-! ## Layout: a vector laid along the rows, a scalar laid everywhere -/

/-- A vector `[n]` made a column `[n, 1]` and repeated along `c` columns, read at `(r, ·)`: the vector at `r`. -/
theorem column_apply {α : Type} {n c : Nat} (hn : n ≠ 1)
    (h1 : (⟨1, ![n]⟩ : Shape).BroadcastsInDim ⟨2, ![n, 1]⟩ ![0])
    (h2 : (⟨2, ![n, 1]⟩ : Shape).BroadcastsInDim ⟨2, ![n, c]⟩ ![0, 1])
    (x : (⟨1, ![n]⟩ : Shape).Idx → α) (j : (⟨2, ![n, c]⟩ : Shape).Idx) :
    broadcastInDim ⟨2, ![n, c]⟩ ![0, 1] h2 (broadcastInDim ⟨2, ![n, 1]⟩ ![0] h1 x) j
      = x (ix1 (⟨(j 0).val, (j 0).isLt⟩ : Fin n)) :=
  (broadcastInDim_apply ![0, 1] h2 (broadcastInDim ⟨2, ![n, 1]⟩ ![0] h1 x) j
      (ix2 (⟨(j 0).val, (j 0).isLt⟩ : Fin n) (0 : Fin 1)) (fun a => by
    match a with
    | ⟨0, _⟩ => exact (if_neg hn).symm
    | ⟨1, _⟩ => exact (if_pos rfl).symm)).trans
  (broadcastInDim_apply ![0] h1 x (ix2 (⟨(j 0).val, (j 0).isLt⟩ : Fin n) (0 : Fin 1))
      (ix1 (⟨(j 0).val, (j 0).isLt⟩ : Fin n)) (fun a => by
    match a with
    | ⟨0, _⟩ => exact (if_neg hn).symm))

/-- A vector `[n]` made a column `[n, 1]`, read at `(r, 0)`: the vector at `r`. -/
theorem asColumn_apply {α : Type} {n : Nat} (hn : n ≠ 1)
    (h1 : (⟨1, ![n]⟩ : Shape).BroadcastsInDim ⟨2, ![n, 1]⟩ ![0])
    (x : (⟨1, ![n]⟩ : Shape).Idx → α) (r : Fin n) :
    broadcastInDim ⟨2, ![n, 1]⟩ ![0] h1 x (ix2 r (0 : Fin 1)) = x (ix1 r) :=
  broadcastInDim_apply ![0] h1 x (ix2 r (0 : Fin 1)) (ix1 r) (fun a => by
    match a with
    | ⟨0, _⟩ => exact (if_neg hn).symm)

/-! ## Per edge = per node, over abstract arrays -/

/-- The scatter-add at the destination rows of the gathered rows of `A`, each scaled by a weight `wgt e` that is
    `dS (src e) · dD r` whenever the edge's raw destination number reads as `r`, is at every index `i` the scatter-add of
    the gathered rows of `A` pre-scaled by `dS`, scaled by `dD` at `i`'s row — provided `dD` is a non-negative real. -/
theorem aggregate_two_scales {R C : Nat}
    (wfS : ScatterDims.WF ⟨2, ![50000, C]⟩ ⟨2, ![R, 1]⟩ ⟨2, ![R, C]⟩ [1] [0] [0] 1)
    (wfG : GatherDims.WF ⟨2, ![50000, C]⟩ ⟨2, ![R, 1]⟩ ⟨2, ![R, C]⟩ [1] [0] [] [0] [] 1 ![1, C])
    (A : (⟨2, ![50000, C]⟩ : Shape).Idx → EReal) (dS dD : (⟨1, ![50000]⟩ : Shape).Idx → EReal)
    (hD : ∀ r, ∃ z : ℝ, 0 ≤ z ∧ dD r = (z : EReal))
    (srcI dstI : IVec ⟨2, ![R, 1]⟩ 32) (wgt : Fin R → EReal)
    (hw : ∀ (e : Fin R) (r : Fin 50000), (dstI (ix2 e 0)).toInt = (r.val : Int) →
      wgt e = dS (ix1 ⟨min (srcI (ix2 e 0)).toInt.toNat (50000 - 1), by omega⟩) * dD (ix1 r))
    (i : (⟨2, ![50000, C]⟩ : Shape).Idx) :
    Ideal.hostScatterAdd (rowsScatterDims 50000 R C wfS) (fun _ => 0) dstI
        (fun j => Host.gather (rowsDims 50000 R C wfG) A srcI j * wgt (⟨(j 0).val, (j 0).isLt⟩ : Fin R)) i
      = Ideal.hostScatterAdd (rowsScatterDims 50000 R C wfS) (fun _ => 0) dstI
          (Host.gather (rowsDims 50000 R C wfG) (fun p => A p * dS (ix1 (⟨(p 0).val, (p 0).isLt⟩ : Fin 50000))) srcI) i
        * dD (ix1 (⟨(i 0).val, (i 0).isLt⟩ : Fin 50000)) := by
  obtain ⟨z, hz, hzi⟩ := hD (ix1 (⟨(i 0).val, (i 0).isLt⟩ : Fin 50000))
  rw [hzi]
  refine scatterAdd_mul_real _ _ _ dstI _ _ i z hz (zero_mul _).symm ?_
  intro j hj
  obtain ⟨hrow, -⟩ := rows_resultIdx_some wfS dstI j i hj
  rw [gather_rows_apply (by norm_num) wfG, gather_rows_apply (by norm_num) wfG,
    hw (⟨(j 0).val, (j 0).isLt⟩ : Fin R) (⟨(i 0).val, (i 0).isLt⟩ : Fin 50000) hrow, hzi, mul_assoc]
  rfl

end Cert.AggBridge

end
-- ==== Proof.AggEq.lean ====
/-
  The tiled program's aggregation (the two per-node factors) is the reference's (one weight per edge), as arrays.

  Both are the same scatter-add at the destination rows; the updates differ as  (h[src] · rsqrt dout[src])  afterwards
  scaled by  rsqrt din[i]  against  h[src] · rsqrt(dout[src] · din[dst]).  This module reads the programs' layout
  operations at an index (a per-node vector laid along the rows, a per-edge vector laid along the rows, the zero
  array) and hands the two sides to the per-edge = per-node law.
-/
import proofs.«129009_j32332513804719_2_alg».proof.Proof.LibTwoScales
import proofs.«129009_j32332513804719_2_alg».proof.Proof.KernelSpec
import proofs.«129009_j32332513804719_2_alg».proof.Proof.RefSpec

set_option maxRecDepth 65536

noncomputable section

namespace Cert.AggEq

open Idealize.ShloMosaic Idealize.ShloMosaic.ValueIdx Cert.LibRows Cert.LibScatterRows Cert.AggBridge
open Cert.KernelIdeal.Gen Cert.ReferenceIdeal.Gen

/-- The edge list's second row, flat: the destination node numbers. -/
abbrev dstFlat (e : IVec Cert.ReferenceIdeal.S2x800000 32) : IVec Cert.ReferenceIdeal.S800000 32 :=
  shapeCast Cert.ReferenceIdeal.S800000 (extractStridedSlice Cert.ReferenceIdeal.S1x800000 ![1, 0] e Cert.ReferenceIdeal.Facts₀.slices_S2x800000_S1x800000_1_0) Cert.ReferenceIdeal.Facts₀.shapeCasts_S1x800000_S800000

/-- The raw destination column at edge `r` is the flat row's entry. -/
theorem dstRaw_apply (e : IVec Cert.ReferenceIdeal.S2x800000 32) (r : Fin 800000) :
    Cert.ReferenceIdeal.Spec.dstRaw e (ix2 r (0 : Fin 1)) = dstFlat e (ix1 r) :=
  asColumn_apply (by omega) Cert.ReferenceIdeal.Facts₀.bcast_S800000_S800000x1_0 (dstFlat e) r

/-- The normalised destination column at edge `r`: the raw number, wrapped around by 50000 when negative. -/
theorem dstNorm_apply (e : IVec Cert.ReferenceIdeal.S2x800000 32) (r : Fin 800000) :
    Cert.ReferenceIdeal.Spec.dstNorm e (ix2 r (0 : Fin 1))
      = Scalar.select (IntOp.cmpi .slt (dstFlat e (ix1 r)) 0#32) (IntOp.addi (dstFlat e (ix1 r)) 50000#32) (dstFlat e (ix1 r)) :=
  asColumn_apply (by omega) Cert.ReferenceIdeal.Facts₀.bcast_S800000_S800000x1_0 _ r

/-- A clamped degree at a node is `max _ 1`. -/
theorem degOut_apply (e : IVec Cert.ReferenceIdeal.S2x800000 32) (p : Cert.ReferenceIdeal.S50000.Idx) :
    ∃ y : EReal, Cert.ReferenceIdeal.Spec.degOut (F := Ideal) e p = max y 1 :=
  ⟨_, by unfold Cert.ReferenceIdeal.Spec.degOut; rw [maximumf_apply]; exact congrArg (max _) Ideal.ofBits_one_f32⟩

theorem degIn_apply (e : IVec Cert.ReferenceIdeal.S2x800000 32) (p : Cert.ReferenceIdeal.S50000.Idx) :
    ∃ y : EReal, Cert.ReferenceIdeal.Spec.degIn (F := Ideal) e p = max y 1 :=
  ⟨_, by unfold Cert.ReferenceIdeal.Spec.degIn; rw [maximumf_apply]; exact congrArg (max _) Ideal.ofBits_one_f32⟩

/-! ## The host operations read at an index, over arbitrary operands -/

theorem hostRsqrt_apply {s : Shape} (x : FVec Ideal s .f32) (j : s.Idx) : Host.rsqrt x j = Ideal.rsqrt (x j) := rfl

theorem hostScatterAdd_apply {s si su : Shape} {w : Nat} (d : ScatterDims s si su) (x : FVec Ideal s .f32) (idx : IVec si w)
    (u : FVec Ideal su .f32) (i : s.Idx) : Host.scatterAdd d x idx u i = Ideal.hostScatterAdd d x idx u i := rfl

theorem hostScatterAdd_congr {s si su : Shape} {w : Nat} (d : ScatterDims s si su) (x x' : s.Idx → EReal) (idx : IVec si w)
    (u u' : su.Idx → EReal) (i : s.Idx) (hx : x = x') (hu : u = u') :
    Ideal.hostScatterAdd d x idx u i = Ideal.hostScatterAdd d x' idx u' i := by rw [hx, hu]

theorem gather_apply {α : Type} {s si t : Shape} {w : Nat} (d : GatherDims s si t) (x : s.Idx → α) (idx : IVec si w) (j : t.Idx) :
    Host.gather d x idx j = x (d.operandIdx j idx) := rfl

/-- The zero array. -/
theorem zeros_eq {T : Shape} (hT : (⟨0, ![]⟩ : Shape).BroadcastsInDim T ![]) :
    (broadcastInDim T ![] hT (constant (F := Ideal) ⟨0, ![]⟩ .f32 0x00000000#32) : T.Idx → EReal) = fun _ => 0 :=
  funext fun j => (broadcastInDim_scalar_apply hT _ j).trans ((constant_apply _ _).trans Ideal.ofBits_zero_f32)

/-- The two programs spell the index columns alike. -/
theorem srcNorm_eq (e : IVec Cert.ReferenceIdeal.S2x800000 32) : Cert.KernelIdeal.Spec.srcNorm e = Cert.ReferenceIdeal.Spec.srcNorm e := rfl
theorem dstRaw_eq (e : IVec Cert.ReferenceIdeal.S2x800000 32) : Cert.KernelIdeal.Spec.dstRaw e = Cert.ReferenceIdeal.Spec.dstRaw e := rfl
theorem degOut_eq (e : IVec Cert.ReferenceIdeal.S2x800000 32) :
    Cert.KernelIdeal.Spec.degOut (F := Ideal) e = Cert.ReferenceIdeal.Spec.degOut (F := Ideal) e := rfl
theorem degIn_eq (e : IVec Cert.ReferenceIdeal.S2x800000 32) :
    Cert.KernelIdeal.Spec.degIn (F := Ideal) e = Cert.ReferenceIdeal.Spec.degIn (F := Ideal) e := rfl

/-- The source-side factor of a node: the reciprocal square root of its clamped out-degree. -/
def facOut (e : IVec Cert.ReferenceIdeal.S2x800000 32) : (⟨1, ![50000]⟩ : Shape).Idx → EReal :=
  fun q => Ideal.rsqrt (Cert.ReferenceIdeal.Spec.degOut (F := Ideal) e q)
theorem facOut_apply (e : IVec Cert.ReferenceIdeal.S2x800000 32) (q : (⟨1, ![50000]⟩ : Shape).Idx) :
    facOut e q = Ideal.rsqrt (Cert.ReferenceIdeal.Spec.degOut (F := Ideal) e q) := rfl

/-- The destination-side factor of a node: the reciprocal square root of its clamped in-degree. -/
def facIn (e : IVec Cert.ReferenceIdeal.S2x800000 32) : (⟨1, ![50000]⟩ : Shape).Idx → EReal :=
  fun q => Ideal.rsqrt (Cert.ReferenceIdeal.Spec.degIn (F := Ideal) e q)
theorem facIn_apply (e : IVec Cert.ReferenceIdeal.S2x800000 32) (q : (⟨1, ![50000]⟩ : Shape).Idx) :
    facIn e q = Ideal.rsqrt (Cert.ReferenceIdeal.Spec.degIn (F := Ideal) e q) := rfl

/-- The weight of an edge. -/
def wgt (e : IVec Cert.ReferenceIdeal.S2x800000 32) : Fin 800000 → EReal :=
  fun r => Cert.ReferenceIdeal.Spec.edgeNorm (F := Ideal) e (ix1 r)
theorem wgt_apply (e : IVec Cert.ReferenceIdeal.S2x800000 32) (r : Fin 800000) :
    wgt e r = Cert.ReferenceIdeal.Spec.edgeNorm (F := Ideal) e (ix1 r) := rfl

/-- The destination-side factor is a non-negative real. -/
theorem facIn_real (e : IVec Cert.ReferenceIdeal.S2x800000 32) (p : (⟨1, ![50000]⟩ : Shape).Idx) :
    ∃ z : ℝ, 0 ≤ z ∧ facIn e p = (z : EReal) := by
  obtain ⟨y, hy⟩ := degIn_apply e p
  rw [facIn_apply, hy]
  exact rsqrt_max_one y

/-- THE WEIGHT OF AN EDGE THAT LANDS: if the raw destination number of edge `r` reads as node `n`, the edge's weight is
    the source-side factor of its (wrapped, clamped) source times the destination-side factor of `n`. -/
theorem wgt_of_lands (e : IVec Cert.ReferenceIdeal.S2x800000 32) (r : Fin 800000) (n : Fin 50000)
    (hn : (Cert.ReferenceIdeal.Spec.dstRaw e (ix2 r (0 : Fin 1))).toInt = (n.val : Int)) :
    wgt e r
      = facOut e (ix1 ⟨min (Cert.ReferenceIdeal.Spec.srcNorm e (ix2 r (0 : Fin 1))).toInt.toNat (50000 - 1), by omega⟩)
        * facIn e (ix1 n) := by
  have wfT : GatherDims.WF ⟨1, ![50000]⟩ ⟨2, ![800000, 1]⟩ ⟨1, ![800000]⟩ [] [0] [] [0] [] 1 ![1] :=
    Cert.ReferenceIdeal.gather_S50000_S800000x1_S800000_n_0_n_n_0_1_1.wf
  have hGT : Cert.ReferenceIdeal.gather_S50000_S800000x1_S800000_n_0_n_n_0_1_1 = take1Dims 50000 800000 wfT := rfl
  rw [dstRaw_apply] at hn
  have hnorm : Cert.ReferenceIdeal.Spec.dstNorm e (ix2 r (0 : Fin 1)) = dstFlat e (ix1 r) := by
    rw [dstNorm_apply]; exact normalize_of_inRange _ n.val hn
  have hclamp : min (Cert.ReferenceIdeal.Spec.dstNorm e (ix2 r (0 : Fin 1))).toInt.toNat (50000 - 1) = n.val := by
    rw [hnorm]; exact clamp_of_inRange_50000 _ n.val n.isLt hn
  have hidx : (ix1 (⟨min (Cert.ReferenceIdeal.Spec.dstNorm e (ix2 r (0 : Fin 1))).toInt.toNat (50000 - 1), by omega⟩ : Fin 50000)
      : (⟨1, ![50000]⟩ : Shape).Idx) = ix1 n := congrArg ix1 (Fin.ext hclamp)
  rw [wgt_apply, facOut_apply, facIn_apply]
  unfold Cert.ReferenceIdeal.Spec.edgeNorm
  rw [hostRsqrt_apply, mulf_apply, hGT, gather_take1_apply_ix1 (by norm_num) wfT, gather_take1_apply_ix1 (by norm_num) wfT, hidx]
  obtain ⟨a, ha⟩ := degOut_apply e (ix1 ⟨min (Cert.ReferenceIdeal.Spec.srcNorm e (ix2 r (0 : Fin 1))).toInt.toNat (50000 - 1), by omega⟩)
  obtain ⟨b, hb⟩ := degIn_apply e (ix1 n)
  rw [ha, hb]
  exact rsqrt_mul _ _ (max_one_pos a) (max_one_pos b)

/-- THE TWO AGGREGATIONS ARE ONE ARRAY. -/
theorem agg_eq (h : FVec Ideal Cert.ReferenceIdeal.S50000x128 .f32) (e : IVec Cert.ReferenceIdeal.S2x800000 32) :
    Cert.KernelIdeal.Spec.agg (F := Ideal) h e (Cert.KernelIdeal.Spec.disOut e) (Cert.KernelIdeal.Spec.disIn e)
      = Cert.ReferenceIdeal.Spec.agg (F := Ideal) h e (Cert.ReferenceIdeal.Spec.edgeNorm e) := by
  have wfS : ScatterDims.WF ⟨2, ![50000, 128]⟩ ⟨2, ![800000, 1]⟩ ⟨2, ![800000, 128]⟩ [1] [0] [0] 1 :=
    Cert.ReferenceIdeal.scatter_S50000x128_S800000x1_S800000x128_1_0_0_1.wf
  have wfG : GatherDims.WF ⟨2, ![50000, 128]⟩ ⟨2, ![800000, 1]⟩ ⟨2, ![800000, 128]⟩ [1] [0] [] [0] [] 1 ![1, 128] :=
    Cert.ReferenceIdeal.gather_S50000x128_S800000x1_S800000x128_1_0_n_n_0_1_1128.wf
  have hSR : Cert.ReferenceIdeal.scatter_S50000x128_S800000x1_S800000x128_1_0_0_1 = rowsScatterDims 50000 800000 128 wfS := rfl
  have hSK : Cert.KernelIdeal.scatter_S50000x128_S800000x1_S800000x128_1_0_0_1 = rowsScatterDims 50000 800000 128 wfS := rfl
  have hGR : Cert.ReferenceIdeal.gather_S50000x128_S800000x1_S800000x128_1_0_n_n_0_1_1128 = rowsDims 50000 800000 128 wfG := rfl
  have hGK : Cert.KernelIdeal.gather_S50000x128_S800000x1_S800000x128_1_0_n_n_0_1_1128 = rowsDims 50000 800000 128 wfG := rfl
  funext i
  -- the per-edge = per-node law at `i`
  have law := aggregate_two_scales wfS wfG h (facOut e) (facIn e) (facIn_real e)
    (Cert.ReferenceIdeal.Spec.srcNorm e) (Cert.ReferenceIdeal.Spec.dstRaw e) (wgt e)
    (fun r n hn => wgt_of_lands e r n hn) i
  -- the reference's side: the zero array, the weights laid along the rows
  have hR : Cert.ReferenceIdeal.Spec.agg (F := Ideal) h e (Cert.ReferenceIdeal.Spec.edgeNorm e) i
      = Ideal.hostScatterAdd (rowsScatterDims 50000 800000 128 wfS) (fun _ => 0) (Cert.ReferenceIdeal.Spec.dstRaw e)
          (fun j => Host.gather (rowsDims 50000 800000 128 wfG) h (Cert.ReferenceIdeal.Spec.srcNorm e) j
            * wgt e (⟨(j 0).val, (j 0).isLt⟩ : Fin 800000)) i := by
    unfold Cert.ReferenceIdeal.Spec.agg
    rw [hostScatterAdd_apply, hSR, hGR]
    refine hostScatterAdd_congr _ _ _ _ _ _ i (zeros_eq _) (funext fun j => ?_)
    rw [mulf_apply, column_apply (by omega) Cert.ReferenceIdeal.Facts₀.bcast_S800000_S800000x1_0 Cert.ReferenceIdeal.Facts₀.bcast_S800000x1_S800000x128_0_1, wgt_apply]
  -- the tiled program's side: the zero array, the two factors laid along the rows
  have hK : Cert.KernelIdeal.Spec.agg (F := Ideal) h e (Cert.KernelIdeal.Spec.disOut e) (Cert.KernelIdeal.Spec.disIn e) i
      = Ideal.hostScatterAdd (rowsScatterDims 50000 800000 128 wfS) (fun _ => 0) (Cert.ReferenceIdeal.Spec.dstRaw e)
          (Host.gather (rowsDims 50000 800000 128 wfG)
            (fun p => h p * facOut e (ix1 (⟨(p 0).val, (p 0).isLt⟩ : Fin 50000)))
            (Cert.ReferenceIdeal.Spec.srcNorm e)) i
        * facIn e (ix1 (⟨(i 0).val, (i 0).isLt⟩ : Fin 50000)) := by
    unfold Cert.KernelIdeal.Spec.agg Cert.KernelIdeal.Spec.disOut Cert.KernelIdeal.Spec.disIn
    rw [mulf_apply, hostScatterAdd_apply, hSK, hGK, srcNorm_eq, dstRaw_eq, degOut_eq, degIn_eq,
      column_apply (by omega) Cert.KernelIdeal.Facts₀.bcast_S50000_S50000x1_0 Cert.KernelIdeal.Facts₀.bcast_S50000x1_S50000x128_0_1, hostRsqrt_apply, ← facIn_apply]
    refine congrArg (· * facIn e (ix1 (⟨(i 0).val, (i 0).isLt⟩ : Fin 50000)))
      (hostScatterAdd_congr _ _ _ _ _ _ i (zeros_eq _) (funext fun j => ?_))
    rw [extf_apply, gather_apply, gather_apply, truncf_apply, mulf_apply,
      column_apply (by omega) Cert.KernelIdeal.Facts₀.bcast_S50000_S50000x1_0 Cert.KernelIdeal.Facts₀.bcast_S50000x1_S50000x128_0_1, hostRsqrt_apply, ← facOut_apply]
  rw [hK, hR]
  exact law.symm

end Cert.AggEq

end
-- ==== Proof.KernelChain.lean ====
/-
  The tiled program's result array is the reference's function of the argument arrays.

  The contents of the buffers at the six segment boundaries of the run are followed from the launch to the end:
  a stretch of host operations computes the per-node factors once and each aggregation from the previous call's
  result; a call turns an aggregation and the activations it came from into the next layer.  At the exact instance
  widening the 16-bit activations is the identity and the tiled aggregation is the reference's (the per-edge =
  per-node law), so the last call's result array is  tanh(h₃ · W_d + b_d)  of the reference's third layer.
-/
import proofs.«129009_j32332513804719_2_alg».proof.Proof.KernelRun
import proofs.«129009_j32332513804719_2_alg».proof.Proof.KernelHost
import proofs.«129009_j32332513804719_2_alg».proof.Proof.Region0
import proofs.«129009_j32332513804719_2_alg».proof.Proof.Region1
import proofs.«129009_j32332513804719_2_alg».proof.Proof.Region2
import proofs.«129009_j32332513804719_2_alg».proof.Proof.AggEq

set_option maxRecDepth 16384

noncomputable section

namespace Cert.KernelIdeal.Chain

open Cert.KernelIdeal Cert.KernelIdeal.Gen Idealize.ShloMosaic Idealize.ShloMosaic.TcCoe Idealize.SL.Sem
open Cert.KernelIdeal.HostValue

variable (m : (ℓ : Loc nD τ sig) → Buf (Elt Ideal) ℓ) (ρ : Dev nD → PrngReg) (c : Dev nD)

/-- Widening the 16-bit activations is the identity at the exact instance. -/
theorem widen_eq (p : FVec Ideal S50000x128 .bf16) : Cert.KernelIdeal.Spec.widen (F := Ideal) p = p := rfl

/-! ## Boundary 1: after the first stretch of host operations -/

theorem b1_agg : W1 m ρ c (Proc.devRef .tc main_v38) = Cert.KernelIdeal.Spec.agg (F := Ideal) (W0 m ρ c (Proc.devRef .tc main_arg0)) (W0 m ρ c (Proc.devRef .tc main_arg1)) (Cert.KernelIdeal.Spec.disOut (F := Ideal) (W0 m ρ c (Proc.devRef .tc main_arg1))) (Cert.KernelIdeal.Spec.disIn (F := Ideal) (W0 m ρ c (Proc.devRef .tc main_arg1))) :=
  host0_agg (W0 m ρ c)
theorem b1_dis : W1 m ρ c (Proc.devRef .tc main_v15) = Cert.KernelIdeal.Spec.disOut (F := Ideal) (W0 m ρ c (Proc.devRef .tc main_arg1)) ∧ W1 m ρ c (Proc.devRef .tc main_v16) = Cert.KernelIdeal.Spec.disIn (F := Ideal) (W0 m ρ c (Proc.devRef .tc main_arg1)) :=
  host0_dis (W0 m ρ c)
theorem b1_keep :
    W1 m ρ c (Proc.devRef .tc main_arg0) = W0 m ρ c (Proc.devRef .tc main_arg0)
    ∧ W1 m ρ c (Proc.devRef .tc main_arg1) = W0 m ρ c (Proc.devRef .tc main_arg1)
    ∧ W1 m ρ c (Proc.devRef .tc main_arg2) = W0 m ρ c (Proc.devRef .tc main_arg2)
    ∧ W1 m ρ c (Proc.devRef .tc main_arg3) = W0 m ρ c (Proc.devRef .tc main_arg3)
    ∧ W1 m ρ c (Proc.devRef .tc main_arg4) = W0 m ρ c (Proc.devRef .tc main_arg4)
    ∧ W1 m ρ c (Proc.devRef .tc main_arg5) = W0 m ρ c (Proc.devRef .tc main_arg5)
    ∧ W1 m ρ c (Proc.devRef .tc main_arg6) = W0 m ρ c (Proc.devRef .tc main_arg6)
    ∧ W1 m ρ c (Proc.devRef .tc main_arg7) = W0 m ρ c (Proc.devRef .tc main_arg7)
    ∧ W1 m ρ c (Proc.devRef .tc main_arg8) = W0 m ρ c (Proc.devRef .tc main_arg8)
    ∧ W1 m ρ c (Proc.devRef .tc main_arg9) = W0 m ρ c (Proc.devRef .tc main_arg9)
    ∧ W1 m ρ c (Proc.devRef .tc main_arg10) = W0 m ρ c (Proc.devRef .tc main_arg10)
    ∧ W1 m ρ c (Proc.devRef .tc main_arg11) = W0 m ρ c (Proc.devRef .tc main_arg11)
    ∧ W1 m ρ c (Proc.devRef .tc main_arg12) = W0 m ρ c (Proc.devRef .tc main_arg12) :=
  host0_keep (W0 m ρ c)

/-! ## Boundary 2: after the first call -/

theorem b2_layer : W2 m ρ c (Proc.devRef .tc main_v39)
    = Cert.ReferenceIdeal.Spec.leaky (F := Ideal) (Cert.ReferenceIdeal.Spec.pre (F := Ideal) (W1 m ρ c (Proc.devRef .tc main_v38)) (W1 m ρ c (Proc.devRef .tc main_arg0)) (W1 m ρ c (Proc.devRef .tc main_arg2)) (W1 m ρ c (Proc.devRef .tc main_arg3)) (W1 m ρ c (Proc.devRef .tc main_arg4))) :=
  (W2_arr m ρ c 5).trans (Cert.KernelIdeal.Region0.final (V1 m ρ) c)
theorem b2_keep :
    W2 m ρ c (Proc.devRef .tc main_arg1) = W1 m ρ c (Proc.devRef .tc main_arg1)
    ∧ W2 m ρ c (Proc.devRef .tc main_arg5) = W1 m ρ c (Proc.devRef .tc main_arg5)
    ∧ W2 m ρ c (Proc.devRef .tc main_arg6) = W1 m ρ c (Proc.devRef .tc main_arg6)
    ∧ W2 m ρ c (Proc.devRef .tc main_arg7) = W1 m ρ c (Proc.devRef .tc main_arg7)
    ∧ W2 m ρ c (Proc.devRef .tc main_arg8) = W1 m ρ c (Proc.devRef .tc main_arg8)
    ∧ W2 m ρ c (Proc.devRef .tc main_arg9) = W1 m ρ c (Proc.devRef .tc main_arg9)
    ∧ W2 m ρ c (Proc.devRef .tc main_arg10) = W1 m ρ c (Proc.devRef .tc main_arg10)
    ∧ W2 m ρ c (Proc.devRef .tc main_arg11) = W1 m ρ c (Proc.devRef .tc main_arg11)
    ∧ W2 m ρ c (Proc.devRef .tc main_arg12) = W1 m ρ c (Proc.devRef .tc main_arg12)
    ∧ W2 m ρ c (Proc.devRef .tc main_v15) = W1 m ρ c (Proc.devRef .tc main_v15)
    ∧ W2 m ρ c (Proc.devRef .tc main_v16) = W1 m ρ c (Proc.devRef .tc main_v16) :=
  ⟨W2_of_ne m ρ c main_arg1 (by decide), W2_of_ne m ρ c main_arg5 (by decide), W2_of_ne m ρ c main_arg6 (by decide), W2_of_ne m ρ c main_arg7 (by decide), W2_of_ne m ρ c main_arg8 (by decide), W2_of_ne m ρ c main_arg9 (by decide), W2_of_ne m ρ c main_arg10 (by decide), W2_of_ne m ρ c main_arg11 (by decide), W2_of_ne m ρ c main_arg12 (by decide), W2_of_ne m ρ c main_v15 (by decide), W2_of_ne m ρ c main_v16 (by decide)⟩

/-! ## Boundary 3: after the second stretch of host operations -/

theorem b3_agg : W3 m ρ c (Proc.devRef .tc main_v62) = Cert.KernelIdeal.Spec.agg (F := Ideal) (Cert.KernelIdeal.Spec.widen (F := Ideal) (W2 m ρ c (Proc.devRef .tc main_v39))) (W2 m ρ c (Proc.devRef .tc main_arg1)) (W2 m ρ c (Proc.devRef .tc main_v15)) (W2 m ρ c (Proc.devRef .tc main_v16)) :=
  host1_agg (W2 m ρ c)
theorem b3_keep :
    W3 m ρ c (Proc.devRef .tc main_v39) = W2 m ρ c (Proc.devRef .tc main_v39)
    ∧ W3 m ρ c (Proc.devRef .tc main_v15) = W2 m ρ c (Proc.devRef .tc main_v15)
    ∧ W3 m ρ c (Proc.devRef .tc main_v16) = W2 m ρ c (Proc.devRef .tc main_v16)
    ∧ W3 m ρ c (Proc.devRef .tc main_arg0) = W2 m ρ c (Proc.devRef .tc main_arg0)
    ∧ W3 m ρ c (Proc.devRef .tc main_arg1) = W2 m ρ c (Proc.devRef .tc main_arg1)
    ∧ W3 m ρ c (Proc.devRef .tc main_arg2) = W2 m ρ c (Proc.devRef .tc main_arg2)
    ∧ W3 m ρ c (Proc.devRef .tc main_arg3) = W2 m ρ c (Proc.devRef .tc main_arg3)
    ∧ W3 m ρ c (Proc.devRef .tc main_arg4) = W2 m ρ c (Proc.devRef .tc main_arg4)
    ∧ W3 m ρ c (Proc.devRef .tc main_arg5) = W2 m ρ c (Proc.devRef .tc main_arg5)
    ∧ W3 m ρ c (Proc.devRef .tc main_arg6) = W2 m ρ c (Proc.devRef .tc main_arg6)
    ∧ W3 m ρ c (Proc.devRef .tc main_arg7) = W2 m ρ c (Proc.devRef .tc main_arg7)
    ∧ W3 m ρ c (Proc.devRef .tc main_arg8) = W2 m ρ c (Proc.devRef .tc main_arg8)
    ∧ W3 m ρ c (Proc.devRef .tc main_arg9) = W2 m ρ c (Proc.devRef .tc main_arg9)
    ∧ W3 m ρ c (Proc.devRef .tc main_arg10) = W2 m ρ c (Proc.devRef .tc main_arg10)
    ∧ W3 m ρ c (Proc.devRef .tc main_arg11) = W2 m ρ c (Proc.devRef .tc main_arg11)
    ∧ W3 m ρ c (Proc.devRef .tc main_arg12) = W2 m ρ c (Proc.devRef .tc main_arg12) :=
  host1_keep (W2 m ρ c)

/-! ## Boundary 4: after the second call -/

theorem b4_layer : W4 m ρ c (Proc.devRef .tc main_v63)
    = Cert.ReferenceIdeal.Spec.leaky (F := Ideal) (Cert.ReferenceIdeal.Spec.pre (F := Ideal) (W3 m ρ c (Proc.devRef .tc main_v62)) (W3 m ρ c (Proc.devRef .tc main_v39)) (W3 m ρ c (Proc.devRef .tc main_arg5)) (W3 m ρ c (Proc.devRef .tc main_arg6)) (W3 m ρ c (Proc.devRef .tc main_arg7))) :=
  (W4_arr m ρ c 5).trans (Cert.KernelIdeal.Region1.final (V3 m ρ) c)
theorem b4_keep :
    W4 m ρ c (Proc.devRef .tc main_arg1) = W3 m ρ c (Proc.devRef .tc main_arg1)
    ∧ W4 m ρ c (Proc.devRef .tc main_arg8) = W3 m ρ c (Proc.devRef .tc main_arg8)
    ∧ W4 m ρ c (Proc.devRef .tc main_arg9) = W3 m ρ c (Proc.devRef .tc main_arg9)
    ∧ W4 m ρ c (Proc.devRef .tc main_arg10) = W3 m ρ c (Proc.devRef .tc main_arg10)
    ∧ W4 m ρ c (Proc.devRef .tc main_arg11) = W3 m ρ c (Proc.devRef .tc main_arg11)
    ∧ W4 m ρ c (Proc.devRef .tc main_arg12) = W3 m ρ c (Proc.devRef .tc main_arg12)
    ∧ W4 m ρ c (Proc.devRef .tc main_v15) = W3 m ρ c (Proc.devRef .tc main_v15)
    ∧ W4 m ρ c (Proc.devRef .tc main_v16) = W3 m ρ c (Proc.devRef .tc main_v16) :=
  ⟨W4_of_ne m ρ c main_arg1 (by decide), W4_of_ne m ρ c main_arg8 (by decide), W4_of_ne m ρ c main_arg9 (by decide), W4_of_ne m ρ c main_arg10 (by decide), W4_of_ne m ρ c main_arg11 (by decide), W4_of_ne m ρ c main_arg12 (by decide), W4_of_ne m ρ c main_v15 (by decide), W4_of_ne m ρ c main_v16 (by decide)⟩

/-! ## Boundary 5: after the third stretch of host operations -/

theorem b5_agg : W5 m ρ c (Proc.devRef .tc main_v86) = Cert.KernelIdeal.Spec.agg (F := Ideal) (Cert.KernelIdeal.Spec.widen (F := Ideal) (W4 m ρ c (Proc.devRef .tc main_v63))) (W4 m ρ c (Proc.devRef .tc main_arg1)) (W4 m ρ c (Proc.devRef .tc main_v15)) (W4 m ρ c (Proc.devRef .tc main_v16)) :=
  host2_agg (W4 m ρ c)
theorem b5_keep :
    W5 m ρ c (Proc.devRef .tc main_v63) = W4 m ρ c (Proc.devRef .tc main_v63)
    ∧ W5 m ρ c (Proc.devRef .tc main_arg0) = W4 m ρ c (Proc.devRef .tc main_arg0)
    ∧ W5 m ρ c (Proc.devRef .tc main_arg1) = W4 m ρ c (Proc.devRef .tc main_arg1)
    ∧ W5 m ρ c (Proc.devRef .tc main_arg2) = W4 m ρ c (Proc.devRef .tc main_arg2)
    ∧ W5 m ρ c (Proc.devRef .tc main_arg3) = W4 m ρ c (Proc.devRef .tc main_arg3)
    ∧ W5 m ρ c (Proc.devRef .tc main_arg4) = W4 m ρ c (Proc.devRef .tc main_arg4)
    ∧ W5 m ρ c (Proc.devRef .tc main_arg5) = W4 m ρ c (Proc.devRef .tc main_arg5)
    ∧ W5 m ρ c (Proc.devRef .tc main_arg6) = W4 m ρ c (Proc.devRef .tc main_arg6)
    ∧ W5 m ρ c (Proc.devRef .tc main_arg7) = W4 m ρ c (Proc.devRef .tc main_arg7)
    ∧ W5 m ρ c (Proc.devRef .tc main_arg8) = W4 m ρ c (Proc.devRef .tc main_arg8)
    ∧ W5 m ρ c (Proc.devRef .tc main_arg9) = W4 m ρ c (Proc.devRef .tc main_arg9)
    ∧ W5 m ρ c (Proc.devRef .tc main_arg10) = W4 m ρ c (Proc.devRef .tc main_arg10)
    ∧ W5 m ρ c (Proc.devRef .tc main_arg11) = W4 m ρ c (Proc.devRef .tc main_arg11)
    ∧ W5 m ρ c (Proc.devRef .tc main_arg12) = W4 m ρ c (Proc.devRef .tc main_arg12) :=
  host2_keep (W4 m ρ c)

/-! ## Boundary 6: after the third call -/

theorem b6_out : W6 m ρ c (Proc.devRef .tc main_v87)
    = Cert.ReferenceIdeal.Spec.dense (F := Ideal) (Cert.ReferenceIdeal.Spec.leaky (F := Ideal) (Cert.ReferenceIdeal.Spec.pre (F := Ideal) (W5 m ρ c (Proc.devRef .tc main_v86)) (W5 m ρ c (Proc.devRef .tc main_v63)) (W5 m ρ c (Proc.devRef .tc main_arg8)) (W5 m ρ c (Proc.devRef .tc main_arg9)) (W5 m ρ c (Proc.devRef .tc main_arg10))))
        (W5 m ρ c (Proc.devRef .tc main_arg11)) (W5 m ρ c (Proc.devRef .tc main_arg12)) :=
  (W6_arr m ρ c 7).trans (Cert.KernelIdeal.Region2.final (V5 m ρ) c)

/-! ## The result -/

/-- The result array at the end of the run is the reference's function of the launch contents of the arguments. -/
theorem result_eq : W6 m ρ c (Proc.devRef .tc main_v87)
    = Cert.ReferenceIdeal.Spec.out (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) := by
  obtain ⟨k5v, k5_0, k5_1, k5_2, k5_3, k5_4, k5_5, k5_6, k5_7, k5_8, k5_9, k5_10, k5_11, k5_12⟩ := b5_keep m ρ c
  obtain ⟨k4_arg1, k4_arg8, k4_arg9, k4_arg10, k4_arg11, k4_arg12, k4_v15, k4_v16⟩ := b4_keep m ρ c
  obtain ⟨k3v39, k3v15, k3v16, k3_0, k3_1, k3_2, k3_3, k3_4, k3_5, k3_6, k3_7, k3_8, k3_9, k3_10, k3_11, k3_12⟩ := b3_keep m ρ c
  obtain ⟨k2_arg1, k2_arg5, k2_arg6, k2_arg7, k2_arg8, k2_arg9, k2_arg10, k2_arg11, k2_arg12, k2_v15, k2_v16⟩ := b2_keep m ρ c
  obtain ⟨k1_0, k1_1, k1_2, k1_3, k1_4, k1_5, k1_6, k1_7, k1_8, k1_9, k1_10, k1_11, k1_12⟩ := b1_keep m ρ c
  obtain ⟨d15, d16⟩ := b1_dis m ρ c
  -- the third call and the stretch before it
  rw [b6_out, b5_agg, k5v, k5_8, k5_9, k5_10, k5_11, k5_12]
  -- the second call and the stretch before it
  rw [b4_layer, k4_arg1, k4_arg8, k4_arg9, k4_arg10, k4_arg11, k4_arg12, k4_v15, k4_v16]
  rw [b3_agg, k3v39, k3v15, k3v16, k3_1, k3_5, k3_6, k3_7, k3_8, k3_9, k3_10, k3_11, k3_12]
  -- the first call and the stretch before it
  rw [b2_layer, k2_arg1, k2_arg5, k2_arg6, k2_arg7, k2_arg8, k2_arg9, k2_arg10, k2_arg11, k2_arg12, k2_v15, k2_v16]
  rw [b1_agg, d15, d16, k1_0, k1_1, k1_2, k1_3, k1_4, k1_5, k1_6, k1_7, k1_8, k1_9, k1_10, k1_11, k1_12]
  -- widening is the identity, the tiled aggregation is the reference's
  simp only [widen_eq, Cert.AggEq.agg_eq]
  unfold Cert.ReferenceIdeal.Spec.out Cert.ReferenceIdeal.Spec.layer
  rfl

end Cert.KernelIdeal.Chain

end
-- ==== Proof.RefValue.lean ====
/-
  The reference's result array is the function `Spec.out` of its argument arrays.

  The program is a straight line of 144 array operations; what a buffer holds at the end is the fold of the
  operations over the launch contents.  The line is cut after the edge weights and after each of the first two
  layers; each piece is read on its own, from whatever contents it starts from, and the pieces are chained.
-/
import proofs.«129009_j32332513804719_2_alg».proof.Proof.RefRunP
import proofs.«129009_j32332513804719_2_alg».proof.Proof.RefSpec

set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.Spec

variable {F : FTy → Type} [FloatOps F]

/-- Running two lines one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The operations up to the edge weights. -/
abbrev seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    unary main_v3 main_v9 (broadcastInDim S800000x1 ![0] bcast_S800000_S800000x1_0 : (⟨S800000, .i32⟩ : BufTy).Contents (Elt F) → (⟨S800000x1, .i32⟩ : BufTy).Contents (Elt F)),
    ternary main_v8 main_v9 main_v4 main_v10 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v11 (broadcastInDim S50000 ![] bcast_S_S50000 : (⟨S_, .f32⟩ : BufTy).Contents (Elt F) → (⟨S50000, .f32⟩ : BufTy).Contents (Elt F)),
    binary main_v7 main_v11 main_v12 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_v1 main_v15 main_v16 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v17 (broadcastInDim S800000 ![] bcast_S_S800000 : (⟨S_, .i32⟩ : BufTy).Contents (Elt F) → (⟨S800000, .i32⟩ : BufTy).Contents (Elt F)),
    binary main_v1 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v12 main_v20 main_v21 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v14 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)),
    unary main_v29 main_v30 (Host.rsqrt : (⟨S800000, .f32⟩ : BufTy).Contents (Elt F) → (⟨S800000, .f32⟩ : BufTy).Contents (Elt F)) ]

/-- The first layer. -/
abbrev seg2 : List (HloOp τ sig (Elt F)) :=
  [ unary main_arg1 main_v31 ((extractStridedSlice S1x800000 ![0, 0] · slices_S2x800000_S1x800000_0_0) : (⟨S2x800000, .i32⟩ : BufTy).Contents (Elt F) → (⟨S1x800000, .i32⟩ : BufTy).Contents (Elt F)),
    reshape main_v31 main_v32 rfl shapeCasts_S1x800000_S800000,
    unary main_arg1 main_v33 ((extractStridedSlice S1x800000 ![1, 0] · slices_S2x800000_S1x800000_1_0) : (⟨S2x800000, .i32⟩ : BufTy).Contents (Elt F) → (⟨S1x800000, .i32⟩ : BufTy).Contents (Elt F)),
    reshape main_v33 main_v34 rfl shapeCasts_S1x800000_S800000,
    nullary main_c_7 (constantI S_ 32 0#32),
    unary main_c_7 main_v35 (broadcastInDim S800000 ![] bcast_S_S800000 : (⟨S_, .i32⟩ : BufTy).Contents (Elt F) → (⟨S800000, .i32⟩ : BufTy).Contents (Elt F)),
    binary main_v32 main_v35 main_v36 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v37 (broadcastInDim S800000 ![] bcast_S_S800000 : (⟨S_, .i32⟩ : BufTy).Contents (Elt F) → (⟨S800000, .i32⟩ : BufTy).Contents (Elt F)),
    binary main_v32 main_v37 main_v38 (addi : (⟨S800000, .i32⟩ : BufTy).Contents (Elt F) → (⟨S800000, .i32⟩ : BufTy).Contents (Elt F) → (⟨S800000, .i32⟩ : BufTy).Contents (Elt F)),
    ternary main_v36 main_v38 main_v32 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v39 main_v40 (broadcastInDim S800000x1 ![0] bcast_S800000_S800000x1_0 : (⟨S800000, .i32⟩ : BufTy).Contents (Elt F) → (⟨S800000x1, .i32⟩ : BufTy).Contents (Elt F)),
    binary main_arg0 main_v40 main_v41 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v42 (broadcastInDim S800000x1 ![0] bcast_S800000_S800000x1_0 : (⟨S800000, .f32⟩ : BufTy).Contents (Elt F) → (⟨S800000x1, .f32⟩ : BufTy).Contents (Elt F)),
    unary main_v42 main_v43 (broadcastInDim S800000x128 ![0, 1] bcast_S800000x1_S800000x128_0_1 : (⟨S800000x1, .f32⟩ : BufTy).Contents (Elt F) → (⟨S800000x128, .f32⟩ : BufTy).Contents (Elt F)),
    binary main_v41 main_v43 main_v44 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v45 (broadcastInDim S50000x128 ![] bcast_S_S50000x128 : (⟨S_, .f32⟩ : BufTy).Contents (Elt F) → (⟨S50000x128, .f32⟩ : BufTy).Contents (Elt F)),
    unary main_v34 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v47 main_arg2 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg3 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v48 main_v49 main_v50 (addf : (⟨S50000x128, .f32⟩ : BufTy).Contents (Elt F) → (⟨S50000x128, .f32⟩ : BufTy).Contents (Elt F) → (⟨S50000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    unary main_cst_10 main_v54 (broadcastInDim S50000x128 ![] bcast_S_S50000x128 : (⟨S_, .f32⟩ : BufTy).Contents (Elt F) → (⟨S50000x128, .f32⟩ : BufTy).Contents (Elt F)),
    binary main_v53 main_v54 main_v55 (cmpf .oge : (⟨S50000x128, .f32⟩ : BufTy).Contents (Elt F) → (⟨S50000x128, .f32⟩ : BufTy).Contents (Elt F) → (⟨S50000x128, .i1⟩ : BufTy).Contents (Elt F)),
    nullary main_cst_11 (constant S_ .f32 0x3E4CCCCD#32),
    unary main_cst_11 main_v56 (broadcastInDim S50000x128 ![] bcast_S_S50000x128 : (⟨S_, .f32⟩ : BufTy).Contents (Elt F) → (⟨S50000x128, .f32⟩ : BufTy).Contents (Elt F)),
    binary main_v56 main_v53 main_v57 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v55) (TRef.of (T := ⟨S50000x128, .f32⟩) main_v53) (TRef.of (T := ⟨S50000x128, .f32⟩) main_v57) (TRef.of (T := ⟨S50000x128, .f32⟩) main_v58) select ]

/-- The second layer. -/
abbrev seg3 : List (HloOp τ sig (Elt F)) :=
  [ unary main_arg1 main_v59 ((extractStridedSlice S1x800000 ![0, 0] · slices_S2x800000_S1x800000_0_0) : (⟨S2x800000, .i32⟩ : BufTy).Contents (Elt F) → (⟨S1x800000, .i32⟩ : BufTy).Contents (Elt F)),
    reshape main_v59 main_v60 rfl shapeCasts_S1x800000_S800000,
    unary main_arg1 main_v61 ((extractStridedSlice S1x800000 ![1, 0] · slices_S2x800000_S1x800000_1_0) : (⟨S2x800000, .i32⟩ : BufTy).Contents (Elt F) → (⟨S1x800000, .i32⟩ : BufTy).Contents (Elt F)),
    reshape main_v61 main_v62 rfl shapeCasts_S1x800000_S800000,
    nullary main_c_12 (constantI S_ 32 0#32),
    unary main_c_12 main_v63 (broadcastInDim S800000 ![] bcast_S_S800000 : (⟨S_, .i32⟩ : BufTy).Contents (Elt F) → (⟨S800000, .i32⟩ : BufTy).Contents (Elt F)),
    binary main_v60 main_v63 main_v64 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v65 (broadcastInDim S800000 ![] bcast_S_S800000 : (⟨S_, .i32⟩ : BufTy).Contents (Elt F) → (⟨S800000, .i32⟩ : BufTy).Contents (Elt F)),
    binary main_v60 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_v60 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v58 main_v68 main_v69 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v70 (broadcastInDim S800000x1 ![0] bcast_S800000_S800000x1_0 : (⟨S800000, .f32⟩ : BufTy).Contents (Elt F) → (⟨S800000x1, .f32⟩ : BufTy).Contents (Elt F)),
    unary main_v70 main_v71 (broadcastInDim S800000x128 ![0, 1] bcast_S800000x1_S800000x128_0_1 : (⟨S800000x1, .f32⟩ : BufTy).Contents (Elt F) → (⟨S800000x128, .f32⟩ : BufTy).Contents (Elt F)),
    binary main_v69 main_v71 main_v72 (mulf : (⟨S800000x128, .f32⟩ : BufTy).Contents (Elt F) → (⟨S800000x128, .f32⟩ : BufTy).Contents (Elt F) → (⟨S800000x128, .f32⟩ : BufTy).Contents (Elt F)),
    nullary main_cst_14 (constant S_ .f32 0x00000000#32),
    unary main_cst_14 main_v73 (broadcastInDim S50000x128 ![] bcast_S_S50000x128 : (⟨S_, .f32⟩ : BufTy).Contents (Elt F) → (⟨S50000x128, .f32⟩ : BufTy).Contents (Elt F)),
    unary main_v62 main_v74 (broadcastInDim S800000x1 ![0] bcast_S800000_S800000x1_0 : (⟨S800000, .i32⟩ : BufTy).Contents (Elt F) → (⟨S800000x1, .i32⟩ : BufTy).Contents (Elt F)),
    ternary main_v73 main_v74 main_v72 main_v75 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v75 main_arg5 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v58 main_arg6 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v76 main_v77 main_v78 (addf : (⟨S50000x128, .f32⟩ : BufTy).Contents (Elt F) → (⟨S50000x128, .f32⟩ : BufTy).Contents (Elt F) → (⟨S50000x128, .f32⟩ : BufTy).Contents (Elt F)),
    unary main_arg7 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    unary main_cst_15 main_v82 (broadcastInDim S50000x128 ![] bcast_S_S50000x128 : (⟨S_, .f32⟩ : BufTy).Contents (Elt F) → (⟨S50000x128, .f32⟩ : BufTy).Contents (Elt F)),
    binary main_v81 main_v82 main_v83 (cmpf .oge : (⟨S50000x128, .f32⟩ : BufTy).Contents (Elt F) → (⟨S50000x128, .f32⟩ : BufTy).Contents (Elt F) → (⟨S50000x128, .i1⟩ : BufTy).Contents (Elt F)),
    nullary main_cst_16 (constant S_ .f32 0x3E4CCCCD#32),
    unary main_cst_16 main_v84 (broadcastInDim S50000x128 ![] bcast_S_S50000x128 : (⟨S_, .f32⟩ : BufTy).Contents (Elt F) → (⟨S50000x128, .f32⟩ : BufTy).Contents (Elt F)),
    binary main_v84 main_v81 main_v85 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v83) (TRef.of (T := ⟨S50000x128, .f32⟩) main_v81) (TRef.of (T := ⟨S50000x128, .f32⟩) main_v85) (TRef.of (T := ⟨S50000x128, .f32⟩) main_v86) select ]

/-- The third layer and the read-out. -/
abbrev seg4 : List (HloOp τ sig (Elt F)) :=
  [ unary main_arg1 main_v87 ((extractStridedSlice S1x800000 ![0, 0] · slices_S2x800000_S1x800000_0_0) : (⟨S2x800000, .i32⟩ : BufTy).Contents (Elt F) → (⟨S1x800000, .i32⟩ : BufTy).Contents (Elt F)),
    reshape main_v87 main_v88 rfl shapeCasts_S1x800000_S800000,
    unary main_arg1 main_v89 ((extractStridedSlice S1x800000 ![1, 0] · slices_S2x800000_S1x800000_1_0) : (⟨S2x800000, .i32⟩ : BufTy).Contents (Elt F) → (⟨S1x800000, .i32⟩ : BufTy).Contents (Elt F)),
    reshape main_v89 main_v90 rfl shapeCasts_S1x800000_S800000,
    nullary main_c_17 (constantI S_ 32 0#32),
    unary main_c_17 main_v91 (broadcastInDim S800000 ![] bcast_S_S800000 : (⟨S_, .i32⟩ : BufTy).Contents (Elt F) → (⟨S800000, .i32⟩ : BufTy).Contents (Elt F)),
    binary main_v88 main_v91 main_v92 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v93 (broadcastInDim S800000 ![] bcast_S_S800000 : (⟨S_, .i32⟩ : BufTy).Contents (Elt F) → (⟨S800000, .i32⟩ : BufTy).Contents (Elt F)),
    binary main_v88 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v88 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v86 main_v96 main_v97 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v98 (broadcastInDim S800000x1 ![0] bcast_S800000_S800000x1_0 : (⟨S800000, .f32⟩ : BufTy).Contents (Elt F) → (⟨S800000x1, .f32⟩ : BufTy).Contents (Elt F)),
    unary main_v98 main_v99 (broadcastInDim S800000x128 ![0, 1] bcast_S800000x1_S800000x128_0_1 : (⟨S800000x1, .f32⟩ : BufTy).Contents (Elt F) → (⟨S800000x128, .f32⟩ : BufTy).Contents (Elt F)),
    binary main_v97 main_v99 main_v100 (mulf : (⟨S800000x128, .f32⟩ : BufTy).Contents (Elt F) → (⟨S800000x128, .f32⟩ : BufTy).Contents (Elt F) → (⟨S800000x128, .f32⟩ : BufTy).Contents (Elt F)),
    nullary main_cst_19 (constant S_ .f32 0x00000000#32),
    unary main_cst_19 main_v101 (broadcastInDim S50000x128 ![] bcast_S_S50000x128 : (⟨S_, .f32⟩ : BufTy).Contents (Elt F) → (⟨S50000x128, .f32⟩ : BufTy).Contents (Elt F)),
    unary main_v90 main_v102 (broadcastInDim S800000x1 ![0] bcast_S800000_S800000x1_0 : (⟨S800000, .i32⟩ : BufTy).Contents (Elt F) → (⟨S800000x1, .i32⟩ : BufTy).Contents (Elt F)),
    ternary main_v101 main_v102 main_v100 main_v103 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v103 main_arg8 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v86 main_arg9 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v104 main_v105 main_v106 (addf : (⟨S50000x128, .f32⟩ : BufTy).Contents (Elt F) → (⟨S50000x128, .f32⟩ : BufTy).Contents (Elt F) → (⟨S50000x128, .f32⟩ : BufTy).Contents (Elt F)),
    unary main_arg10 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (addf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    unary main_cst_20 main_v110 (broadcastInDim S50000x128 ![] bcast_S_S50000x128 : (⟨S_, .f32⟩ : BufTy).Contents (Elt F) → (⟨S50000x128, .f32⟩ : BufTy).Contents (Elt F)),
    binary main_v109 main_v110 main_v111 (cmpf .oge : (⟨S50000x128, .f32⟩ : BufTy).Contents (Elt F) → (⟨S50000x128, .f32⟩ : BufTy).Contents (Elt F) → (⟨S50000x128, .i1⟩ : BufTy).Contents (Elt F)),
    nullary main_cst_21 (constant S_ .f32 0x3E4CCCCD#32),
    unary main_cst_21 main_v112 (broadcastInDim S50000x128 ![] bcast_S_S50000x128 : (⟨S_, .f32⟩ : BufTy).Contents (Elt F) → (⟨S50000x128, .f32⟩ : BufTy).Contents (Elt F)),
    binary main_v112 main_v109 main_v113 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v111) (TRef.of (T := ⟨S50000x128, .f32⟩) main_v109) (TRef.of (T := ⟨S50000x128, .f32⟩) main_v113) (TRef.of (T := ⟨S50000x128, .f32⟩) main_v114) select,
    binary main_v114 main_arg11 main_v115 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg12 main_v116 (broadcastInDim S1x16 ![1] bcast_S16_S1x16_1 : (⟨S16, .f32⟩ : BufTy).Contents (Elt F) → (⟨S1x16, .f32⟩ : BufTy).Contents (Elt F)),
    unary main_v116 main_v117 (broadcastInDim S50000x16 ![0, 1] bcast_S1x16_S50000x16_0_1 : (⟨S1x16, .f32⟩ : BufTy).Contents (Elt F) → (⟨S50000x16, .f32⟩ : BufTy).Contents (Elt F)),
    binary main_v115 main_v117 main_v118 (addf : (⟨S50000x16, .f32⟩ : BufTy).Contents (Elt F) → (⟨S50000x16, .f32⟩ : BufTy).Contents (Elt F) → (⟨S50000x16, .f32⟩ : BufTy).Contents (Elt F)),
    unary main_v118 main_v119 (Host.tanh : (⟨S50000x16, .f32⟩ : BufTy).Contents (Elt F) → (⟨S50000x16, .f32⟩ : BufTy).Contents (Elt F)) ]

set_option maxHeartbeats 4000000 in
theorem ops_eq : (ops : List (HloOp τ sig (Elt F))) = seg1 ++ (seg2 ++ (seg3 ++ seg4)) := rfl

/-! ## The first piece: the edge weights -/

set_option maxHeartbeats 4000000 in
theorem seg1_norm (V : Valuation τ sig (Elt F)) :
    after seg1 V (Proc.devRef .tc main_v30) = edgeNorm (V (Proc.devRef .tc main_arg1)) := by
  after_results_simp <;> rfl

set_option maxHeartbeats 4000000 in
theorem seg1_keep (V : Valuation τ sig (Elt F)) :
    after seg1 V (Proc.devRef .tc main_arg0) = V (Proc.devRef .tc main_arg0)
    ∧ after seg1 V (Proc.devRef .tc main_arg1) = V (Proc.devRef .tc main_arg1)
    ∧ after seg1 V (Proc.devRef .tc main_arg2) = V (Proc.devRef .tc main_arg2)
    ∧ after seg1 V (Proc.devRef .tc main_arg3) = V (Proc.devRef .tc main_arg3)
    ∧ after seg1 V (Proc.devRef .tc main_arg4) = V (Proc.devRef .tc main_arg4)
    ∧ after seg1 V (Proc.devRef .tc main_arg5) = V (Proc.devRef .tc main_arg5)
    ∧ after seg1 V (Proc.devRef .tc main_arg6) = V (Proc.devRef .tc main_arg6)
    ∧ after seg1 V (Proc.devRef .tc main_arg7) = V (Proc.devRef .tc main_arg7)
    ∧ after seg1 V (Proc.devRef .tc main_arg8) = V (Proc.devRef .tc main_arg8)
    ∧ after seg1 V (Proc.devRef .tc main_arg9) = V (Proc.devRef .tc main_arg9)
    ∧ after seg1 V (Proc.devRef .tc main_arg10) = V (Proc.devRef .tc main_arg10)
    ∧ after seg1 V (Proc.devRef .tc main_arg11) = V (Proc.devRef .tc main_arg11)
    ∧ after seg1 V (Proc.devRef .tc main_arg12) = V (Proc.devRef .tc main_arg12) := by
  refine ⟨?_, ?_, ?_, ?_, ?_, ?_, ?_, ?_, ?_, ?_, ?_, ?_, ?_⟩ <;> after_results_simp

/-! ## The second piece: layer one -/

set_option maxHeartbeats 4000000 in
theorem seg2_layer (V : Valuation τ sig (Elt F)) :
    after seg2 V (Proc.devRef .tc main_v58)
      = layer (V (Proc.devRef .tc main_arg0)) (V (Proc.devRef .tc main_arg1)) (V (Proc.devRef .tc main_v30)) (V (Proc.devRef .tc main_arg2)) (V (Proc.devRef .tc main_arg3)) (V (Proc.devRef .tc main_arg4)) := by
  after_results_simp <;> rfl

set_option maxHeartbeats 4000000 in
theorem seg2_keep (V : Valuation τ sig (Elt F)) :
    after seg2 V (Proc.devRef .tc main_v30) = V (Proc.devRef .tc main_v30)
    ∧ after seg2 V (Proc.devRef .tc main_arg1) = V (Proc.devRef .tc main_arg1)
    ∧ after seg2 V (Proc.devRef .tc main_arg5) = V (Proc.devRef .tc main_arg5)
    ∧ after seg2 V (Proc.devRef .tc main_arg6) = V (Proc.devRef .tc main_arg6)
    ∧ after seg2 V (Proc.devRef .tc main_arg7) = V (Proc.devRef .tc main_arg7)
    ∧ after seg2 V (Proc.devRef .tc main_arg8) = V (Proc.devRef .tc main_arg8)
    ∧ after seg2 V (Proc.devRef .tc main_arg9) = V (Proc.devRef .tc main_arg9)
    ∧ after seg2 V (Proc.devRef .tc main_arg10) = V (Proc.devRef .tc main_arg10)
    ∧ after seg2 V (Proc.devRef .tc main_arg11) = V (Proc.devRef .tc main_arg11)
    ∧ after seg2 V (Proc.devRef .tc main_arg12) = V (Proc.devRef .tc main_arg12) := by
  refine ⟨?_, ?_, ?_, ?_, ?_, ?_, ?_, ?_, ?_, ?_⟩ <;> after_results_simp

/-! ## The third piece: layer two -/

set_option maxHeartbeats 4000000 in
theorem seg3_layer (V : Valuation τ sig (Elt F)) :
    after seg3 V (Proc.devRef .tc main_v86)
      = layer (V (Proc.devRef .tc main_v58)) (V (Proc.devRef .tc main_arg1)) (V (Proc.devRef .tc main_v30)) (V (Proc.devRef .tc main_arg5)) (V (Proc.devRef .tc main_arg6)) (V (Proc.devRef .tc main_arg7)) := by
  after_results_simp <;> rfl

set_option maxHeartbeats 4000000 in
theorem seg3_keep (V : Valuation τ sig (Elt F)) :
    after seg3 V (Proc.devRef .tc main_v30) = V (Proc.devRef .tc main_v30)
    ∧ after seg3 V (Proc.devRef .tc main_arg1) = V (Proc.devRef .tc main_arg1)
    ∧ after seg3 V (Proc.devRef .tc main_arg8) = V (Proc.devRef .tc main_arg8)
    ∧ after seg3 V (Proc.devRef .tc main_arg9) = V (Proc.devRef .tc main_arg9)
    ∧ after seg3 V (Proc.devRef .tc main_arg10) = V (Proc.devRef .tc main_arg10)
    ∧ after seg3 V (Proc.devRef .tc main_arg11) = V (Proc.devRef .tc main_arg11)
    ∧ after seg3 V (Proc.devRef .tc main_arg12) = V (Proc.devRef .tc main_arg12) := by
  refine ⟨?_, ?_, ?_, ?_, ?_, ?_, ?_⟩ <;> after_results_simp

/-! ## The last piece: layer three and the read-out -/

set_option maxHeartbeats 4000000 in
theorem seg4_out (V : Valuation τ sig (Elt F)) :
    after seg4 V (Proc.devRef .tc main_v119)
      = dense (layer (V (Proc.devRef .tc main_v86)) (V (Proc.devRef .tc main_arg1)) (V (Proc.devRef .tc main_v30)) (V (Proc.devRef .tc main_arg8)) (V (Proc.devRef .tc main_arg9)) (V (Proc.devRef .tc main_arg10)))
          (V (Proc.devRef .tc main_arg11)) (V (Proc.devRef .tc main_arg12)) := by
  after_results_simp <;> rfl

/-! ## The whole line -/

/-- The result buffer after the whole line, from any contents `V`: `Spec.out` of the argument buffers' contents. -/
theorem result_eq (V : Valuation τ sig (Elt F)) :
    after ops V (Proc.devRef .tc main_v119)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_eq, after_append, after_append, after_append, seg4_out]
  obtain ⟨k30, k1, k8, k9, k10, k11, k12⟩ := seg3_keep (after seg2 (after seg1 V))
  rw [seg3_layer, k30, k1, k8, k9, k10, k11, k12]
  obtain ⟨j30, j1, j5, j6, j7, j8, j9, j10, j11, j12⟩ := seg2_keep (after seg1 V)
  rw [seg2_layer, j30, j1, j5, j6, j7, j8, j9, j10, j11, j12]
  obtain ⟨i0, i1, i2, i3, i4, i5, i6, i7, i8, i9, i10, i11, i12⟩ := seg1_keep V
  rw [seg1_norm, i0, i1, i2, i3, i4, i5, i6, i7, i8, i9, i10, i11, i12]
  rfl

set_option maxHeartbeats 16000000 in
/-- The argument buffers after the whole line hold what they held. -/
theorem args_keep (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12) := by
  refine ⟨?_, ?_, ?_, ?_, ?_, ?_, ?_, ?_, ?_, ?_, ?_, ?_, ?_⟩ <;> after_results_simp

end Cert.ReferenceIdeal.RefValue

end
-- ==== Proof.lean ====
/-
  The certificate of the tiled three-layer graph network against its reference.

  Both programs compute, from node features x, an edge list and the layers' weights,

      h₀ = x,   hₗ = leaky(agg(hₗ₋₁) · W₁ₗ + hₗ₋₁ · W₂ₗ + bₗ)  (l = 1, 2, 3),   result = tanh(h₃ · W_d + b_d),

  where agg sums, at every node, the rows of its in-neighbours weighted by  rsqrt(dout(src) · din(dst)).  The reference
  forms that weight per edge; the tiled program scales the rows by rsqrt(dout) before the gather and the sums by
  rsqrt(din) afterwards (Proof/LibTwoScales.lean, Proof/AggEq.lean: equal on the extended reals, the destination-side
  factor being a non-negative real), and computes each layer in blocks of 5000 rows (Proof/LayerPoint.lean,
  Proof/Region0.lean … Region2.lean: a block's entry is the whole arrays' entry on the matching row).  The tiled
  program's run is followed boundary by boundary in Proof/KernelChain.lean, the reference's straight line is read
  in Proof/RefValue.lean; both results are the function `Spec.out` of the argument arrays (Proof/RefSpec.lean).
  The frames are the runs with the results dropped; the idealization rewrote nothing.
-/
import proofs.«129009_j32332513804719_2_alg».proof.Defs
import proofs.«129009_j32332513804719_2_alg».proof.Proof.Gen.Kernel
import proofs.«129009_j32332513804719_2_alg».proof.Proof.Gen.Kernel.Skeleton
import proofs.«129009_j32332513804719_2_alg».proof.Proof.Gen.Kernel.Launch
import proofs.«129009_j32332513804719_2_alg».proof.Proof.Gen.Kernel.Points
import proofs.«129009_j32332513804719_2_alg».proof.Proof.Gen.Kernel.Frame
import proofs.«129009_j32332513804719_2_alg».proof.Proof.Gen.KernelIdeal
import proofs.«129009_j32332513804719_2_alg».proof.Proof.Gen.KernelIdeal.Skeleton
import proofs.«129009_j32332513804719_2_alg».proof.Proof.Gen.KernelIdeal.Launch
import proofs.«129009_j32332513804719_2_alg».proof.Proof.Gen.KernelIdeal.Points
import proofs.«129009_j32332513804719_2_alg».proof.Proof.Gen.KernelIdeal.Frame
import proofs.«129009_j32332513804719_2_alg».proof.Proof.Gen.ReferenceIdeal
import proofs.«129009_j32332513804719_2_alg».proof.Proof.Gen.Pre_finite_inputs
import proofs.«129009_j32332513804719_2_alg».proof.Proof.KernelChain
import proofs.«129009_j32332513804719_2_alg».proof.Proof.RefValue
import Idealize.ShloMosaic.Adequacy
import Idealize.ShloMosaic.Init

set_option maxRecDepth 16384

noncomputable section

namespace Cert.Proof

open Idealize.ShloMosaic Idealize.SL.Sem Idealize.ShloMosaic.StableHlo

/-- The result is one function of the arguments: equal arguments, equal results. -/
theorem out_congr {a0 a0' : FVec Ideal Cert.ReferenceIdeal.S50000x128 .f32} {a1 a1' : IVec Cert.ReferenceIdeal.S2x800000 32} {a2 a2' : FVec Ideal Cert.ReferenceIdeal.S128x128 .f32} {a3 a3' : FVec Ideal Cert.ReferenceIdeal.S128x128 .f32} {a4 a4' : FVec Ideal Cert.ReferenceIdeal.S128 .f32} {a5 a5' : FVec Ideal Cert.ReferenceIdeal.S128x128 .f32} {a6 a6' : FVec Ideal Cert.ReferenceIdeal.S128x128 .f32} {a7 a7' : FVec Ideal Cert.ReferenceIdeal.S128 .f32} {a8 a8' : FVec Ideal Cert.ReferenceIdeal.S128x128 .f32} {a9 a9' : FVec Ideal Cert.ReferenceIdeal.S128x128 .f32} {a10 a10' : FVec Ideal Cert.ReferenceIdeal.S128 .f32} {a11 a11' : FVec Ideal Cert.ReferenceIdeal.S128x16 .f32} {a12 a12' : FVec Ideal Cert.ReferenceIdeal.S16 .f32}
    (h0 : a0 = a0') (h1 : a1 = a1') (h2 : a2 = a2') (h3 : a3 = a3') (h4 : a4 = a4') (h5 : a5 = a5') (h6 : a6 = a6') (h7 : a7 = a7') (h8 : a8 = a8') (h9 : a9 = a9') (h10 : a10 = a10') (h11 : a11 = a11') (h12 : a12 = a12') :
    Cert.ReferenceIdeal.Spec.out (F := Ideal) a0 a1 a2 a3 a4 a5 a6 a7 a8 a9 a10 a11 a12 = Cert.ReferenceIdeal.Spec.out (F := Ideal) a0' a1' a2' a3' a4' a5' a6' a7' a8' a9' a10' a11' a12' := by
  subst_vars; rfl

theorem frame_k : Cert.frame_Kernel := fun m ρ _ => Cert.Kernel.Gen.frame m ρ

theorem frame_ki : Cert.frame_KernelIdeal := fun m ρ _ => Cert.KernelIdeal.Gen.frame m ρ

/-- The reference's run with the result dropped: every argument buffer ends as launched. -/
theorem frame_ri : Cert.frame_ReferenceIdeal := fun m ρ _ =>
  (θ_run Cert.ReferenceIdeal.defs _ _).mono (fun r h c =>
    have k := Cert.ReferenceIdeal.RefValue.args_keep (launchContents m c)
    ⟨(h c Cert.ReferenceIdeal.main_arg0).trans k.1,
     (h c Cert.ReferenceIdeal.main_arg1).trans k.2.1,
     (h c Cert.ReferenceIdeal.main_arg2).trans k.2.2.1,
     (h c Cert.ReferenceIdeal.main_arg3).trans k.2.2.2.1,
     (h c Cert.ReferenceIdeal.main_arg4).trans k.2.2.2.2.1,
     (h c Cert.ReferenceIdeal.main_arg5).trans k.2.2.2.2.2.1,
     (h c Cert.ReferenceIdeal.main_arg6).trans k.2.2.2.2.2.2.1,
     (h c Cert.ReferenceIdeal.main_arg7).trans k.2.2.2.2.2.2.2.1,
     (h c Cert.ReferenceIdeal.main_arg8).trans k.2.2.2.2.2.2.2.2.1,
     (h c Cert.ReferenceIdeal.main_arg9).trans k.2.2.2.2.2.2.2.2.2.1,
     (h c Cert.ReferenceIdeal.main_arg10).trans k.2.2.2.2.2.2.2.2.2.2.1,
     (h c Cert.ReferenceIdeal.main_arg11).trans k.2.2.2.2.2.2.2.2.2.2.2.1,
     (h c Cert.ReferenceIdeal.main_arg12).trans k.2.2.2.2.2.2.2.2.2.2.2.2⟩)
    (Cert.ReferenceIdeal.ValueP.run_fold (F := Ideal) m ρ)

/-- The idealization rewrote no operation. -/
theorem preserves : Cert.preserves_Kernel_KernelIdeal := trivial

/-- From memories agreeing on the arguments both programs end with the result array at `Spec.out` of the arguments. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result_eq m ρ c), (h c).2⟩)
      (Cert.KernelIdeal.Result.run_result m ρ)
  · refine (θ_run Cert.ReferenceIdeal.defs _ _).mono (fun r h c => ?_)
      (Cert.ReferenceIdeal.ValueP.run_fold (F := Ideal) m' ρ')
    have k := Cert.ReferenceIdeal.RefValue.args_keep (launchContents m' c)
    have g := hagree c
    exact ⟨(h c Cert.ReferenceIdeal.main_v119).trans ((Cert.ReferenceIdeal.RefValue.result_eq (launchContents m' c)).trans
        (out_congr g.1 g.2.1 g.2.2.1 g.2.2.2.1 g.2.2.2.2.1 g.2.2.2.2.2.1 g.2.2.2.2.2.2.1 g.2.2.2.2.2.2.2.1 g.2.2.2.2.2.2.2.2.1 g.2.2.2.2.2.2.2.2.2.1 g.2.2.2.2.2.2.2.2.2.2.1 g.2.2.2.2.2.2.2.2.2.2.2.1 g.2.2.2.2.2.2.2.2.2.2.2.2)),
      (h c Cert.ReferenceIdeal.main_arg0).trans k.1,
      (h c Cert.ReferenceIdeal.main_arg1).trans k.2.1,
      (h c Cert.ReferenceIdeal.main_arg2).trans k.2.2.1,
      (h c Cert.ReferenceIdeal.main_arg3).trans k.2.2.2.1,
      (h c Cert.ReferenceIdeal.main_arg4).trans k.2.2.2.2.1,
      (h c Cert.ReferenceIdeal.main_arg5).trans k.2.2.2.2.2.1,
      (h c Cert.ReferenceIdeal.main_arg6).trans k.2.2.2.2.2.2.1,
      (h c Cert.ReferenceIdeal.main_arg7).trans k.2.2.2.2.2.2.2.1,
      (h c Cert.ReferenceIdeal.main_arg8).trans k.2.2.2.2.2.2.2.2.1,
      (h c Cert.ReferenceIdeal.main_arg9).trans k.2.2.2.2.2.2.2.2.2.1,
      (h c Cert.ReferenceIdeal.main_arg10).trans k.2.2.2.2.2.2.2.2.2.2.1,
      (h c Cert.ReferenceIdeal.main_arg11).trans k.2.2.2.2.2.2.2.2.2.2.2.1,
      (h c Cert.ReferenceIdeal.main_arg12).trans k.2.2.2.2.2.2.2.2.2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
